-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1703936 : Shape := ⟨1, ![1703936]⟩
abbrev S1703936x1 : Shape := ⟨2, ![1703936, 1]⟩
abbrev S100000x64 : Shape := ⟨2, ![100000, 64]⟩
abbrev S2000x128 : Shape := ⟨2, ![2000, 128]⟩
abbrev S2000x64 : Shape := ⟨2, ![2000, 64]⟩
abbrev S1703936x64 : Shape := ⟨2, ![1703936, 64]⟩
abbrev S4096x64 : Shape := ⟨2, ![4096, 64]⟩
abbrev S4096x1 : Shape := ⟨2, ![4096, 1]⟩
abbrev S1x64 : Shape := ⟨2, ![1, 64]⟩
abbrev S100000x40 : Shape := ⟨2, ![100000, 40]⟩
abbrev S2000x40 : Shape := ⟨2, ![2000, 40]⟩
abbrev S1703936x40 : Shape := ⟨2, ![1703936, 40]⟩
abbrev S4096x40 : Shape := ⟨2, ![4096, 40]⟩
abbrev S1x40 : Shape := ⟨2, ![1, 40]⟩

abbrev nBuf : Space → Nat
  | .hbm => 90
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S_, .i32⟩
  | .hbm, ⟨48, _⟩ => ⟨S1703936, .i32⟩
  | .hbm, ⟨49, _⟩ => ⟨S_, .i32⟩
  | .hbm, ⟨50, _⟩ => ⟨S_, .i32⟩
  | .hbm, ⟨51, _⟩ => ⟨S1703936, .i32⟩
  | .hbm, ⟨52, _⟩ => ⟨S_, .f32⟩
  | .hbm, ⟨53, _⟩ => ⟨S_, .f32⟩
  | .hbm, ⟨54, _⟩ => ⟨S1703936, .f32⟩
  | .hbm, ⟨55, _⟩ => ⟨S1703936x1, .f32⟩
  | .hbm, ⟨56, _⟩ => ⟨S100000x64, .f32⟩
  | .hbm, ⟨57, _⟩ => ⟨S_, .i32⟩
  | .hbm, ⟨58, _⟩ => ⟨S1703936, .i32⟩
  | .hbm, ⟨59, _⟩ => ⟨S1703936, .i1⟩
  | .hbm, ⟨60, _⟩ => ⟨S_, .i32⟩
  | .hbm, ⟨61, _⟩ => ⟨S1703936, .i32⟩
  | .hbm, ⟨62, _⟩ => ⟨S1703936, .i32⟩
  | .hbm, ⟨63, _⟩ => ⟨S1703936, .i32⟩
  | .hbm, ⟨64, _⟩ => ⟨S1703936x1, .i32⟩
  | .hbm, ⟨65, _⟩ => ⟨S1703936x64, .f32⟩
  | .hbm, ⟨66, _⟩ => ⟨S1703936x64, .f32⟩
  | .hbm, ⟨67, _⟩ => ⟨S_, .f32⟩
  | .hbm, ⟨68, _⟩ => ⟨S100000x64, .f32⟩
  | .hbm, ⟨69, _⟩ => ⟨S1703936x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x40, .f32⟩
  | .hbm, ⟨74, _⟩ => ⟨S_, .i32⟩
  | .hbm, ⟨75, _⟩ => ⟨S1703936, .i32⟩
  | .hbm, ⟨76, _⟩ => ⟨S1703936, .i1⟩
  | .hbm, ⟨77, _⟩ => ⟨S_, .i32⟩
  | .hbm, ⟨78, _⟩ => ⟨S1703936, .i32⟩
  | .hbm, ⟨79, _⟩ => ⟨S1703936, .i32⟩
  | .hbm, ⟨80, _⟩ => ⟨S1703936, .i32⟩
  | .hbm, ⟨81, _⟩ => ⟨S1703936x1, .i32⟩
  | .hbm, ⟨82, _⟩ => ⟨S1703936x40, .f32⟩
  | .hbm, ⟨83, _⟩ => ⟨S1703936x40, .f32⟩
  | .hbm, ⟨84, _⟩ => ⟨S_, .f32⟩
  | .hbm, ⟨85, _⟩ => ⟨S100000x40, .f32⟩
  | .hbm, ⟨86, _⟩ => ⟨S1703936x1, .i32⟩
  | .hbm, ⟨87, _⟩ => ⟨S100000x40, .f32⟩
  | .hbm, ⟨88, _⟩ => ⟨S1x40, .f32⟩
  | .hbm, ⟨89, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S4096x64, .f32⟩
  | .local _ .vmem, ⟨6, _⟩ => ⟨S4096x64, .f32⟩
  | .local _ .vmem, ⟨7, _⟩ => ⟨S4096x1, .f32⟩
  | .local _ .vmem, ⟨8, _⟩ => ⟨S4096x1, .f32⟩
  | .local _ .vmem, ⟨9, _⟩ => ⟨S4096x64, .f32⟩
  | .local _ .vmem, ⟨10, _⟩ => ⟨S4096x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x40, .f32⟩
  | .local _ .vmem, ⟨19, _⟩ => ⟨S2000x40, .f32⟩
  | .local _ .vmem, ⟨20, _⟩ => ⟨S2000x40, .f32⟩
  | .local _ .vmem, ⟨21, _⟩ => ⟨S4096x40, .f32⟩
  | .local _ .vmem, ⟨22, _⟩ => ⟨S4096x40, .f32⟩
  | .local _ .vmem, ⟨23, _⟩ => ⟨S4096x1, .f32⟩
  | .local _ .vmem, ⟨24, _⟩ => ⟨S4096x1, .f32⟩
  | .local _ .vmem, ⟨25, _⟩ => ⟨S4096x40, .f32⟩
  | .local _ .vmem, ⟨26, _⟩ => ⟨S4096x40, .f32⟩
  | .local _ .vmem, ⟨27, _⟩ => ⟨S2000x40, .f32⟩
  | .local _ .vmem, ⟨28, _⟩ => ⟨S2000x40, .f32⟩
  | .local _ .vmem, ⟨29, _⟩ => ⟨S1x40, .f32⟩
  | .local _ .vmem, ⟨30, _⟩ => ⟨S2000x40, .f32⟩
  | .local _ .vmem, ⟨31, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_c_7 : Ref sig .tc := ⟨.hbm, 49, rfl⟩
abbrev main_call2_v0 : Ref sig .tc := ⟨.hbm, 50, rfl⟩
abbrev main_v31 : Ref sig .tc := ⟨.hbm, 51, rfl⟩
abbrev main_cst_8 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![416], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![416], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1703936_039360 : S1700000.Pads (![0] : Fin 1 → Nat) ![3936] ![0] S1703936
  h_S_ : 0 < S_.numel
  shapeCasts_S1703936_S1703936x1 : S1703936.ShapeCasts S1703936x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  broadcasts_S4096x1_S4096x40 : S4096x1.Broadcasts S4096x40
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  dot_S2000x64_S64x40_S2000x40_1_0_0_1_n_n_wf : DotDims.WF S2000x64 S64x40 S2000x40 [1] [0] [0] [1] [] []
  gather_S100000x40_S1703936x1_S1703936x40_1_0_n_n_0_1_140_wf : GatherDims.WF S100000x40 S1703936x1 S1703936x40 [1] [0] [] [0] [] 1 ![1, 40]
  scatter_S100000x40_S1703936x1_S1703936x40_1_0_0_1_wf : ScatterDims.WF S100000x40 S1703936x1 S1703936x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S1703936x64.size a
  hwx1_0 : ∀ i : grid1.Coords, EltTy.bits .f32 = 32 ∨ (Rect.block (s := S1703936x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1703936x1.size a
  hwx1_1 : ∀ i : grid1.Coords, EltTy.bits .f32 = 32 ∨ (Rect.block (s := S1703936x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S1703936x64.size a
  hwx1_2 : ∀ i : grid1.Coords, EltTy.bits .f32 = 32 ∨ (Rect.block (s := S1703936x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x40.size a ≤ S1703936x40.size a
  hwx4_0 : ∀ i : grid4.Coords, EltTy.bits .f32 = 32 ∨ (Rect.block (s := S1703936x40) S4096x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S1703936x1.size a
  hwx4_1 : ∀ i : grid4.Coords, EltTy.bits .f32 = 32 ∨ (Rect.block (s := S1703936x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x40.size a ≤ S1703936x40.size a
  hwx4_2 : ∀ i : grid4.Coords, EltTy.bits .f32 = 32 ∨ (Rect.block (s := S1703936x40) S4096x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1703936x1_S1703936x40_1_0_n_n_0_1_140 : GatherDims S100000x40 S1703936x1 S1703936x40 where
  offsetDims := [1]
  collapsedSliceDims := [0]
  operandBatchingDims := []
  startIndicesBatchingDims := []
  startIndexMap := [0]
  indexVectorDim := 1
  sliceSizes := ![1, 40]
  wf := gather_S100000x40_S1703936x1_S1703936x40_1_0_n_n_0_1_140_wf
def scatter_S100000x40_S1703936x1_S1703936x40_1_0_0_1 : ScatterDims S100000x40 S1703936x1 S1703936x40 where
  updateWindowDims := [1]
  insertedWindowDims := [0]
  scatterDimsToOperandDims := [0]
  indexVectorDim := 1
  wf := scatter_S100000x40_S1703936x1_S1703936x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S4096x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S4096x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x40, .f32⟩
  | .hbm, ⟨112, _⟩ => ⟨S1700000x1, .f32⟩
  | .hbm, ⟨113, _⟩ => ⟨S1700000x40, .f32⟩
  | .hbm, ⟨114, _⟩ => ⟨S1700000x40, .f32⟩
  | .hbm, ⟨115, _⟩ => ⟨S_, .f32⟩
  | .hbm, ⟨116, _⟩ => ⟨S100000x40, .f32⟩
  | .hbm, ⟨117, _⟩ => ⟨S1700000x1, .i32⟩
  | .hbm, ⟨118, _⟩ => ⟨S100000x40, .f32⟩
  | .hbm, ⟨119, _⟩ => ⟨S1x40, .f32⟩
  | .hbm, ⟨120, _⟩ => ⟨S100000x40, .f32⟩
  | .hbm, ⟨121, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
import proofs.«176352_j70050916598092_1_alg».proof.Proof.Gen.KernelIdeal.Frame

/-!
The idealized kernel program's run with its result named: every weakly fair execution terminates,
nothing faults, the six argument arrays end as launched, and the result array ends at what the
last region's write-backs leave in it — the contents of the last segment boundary at the result's buffer.
The host stretches and the six regions are threaded exactly as in the frame statement; only the
final reading of the thread state keeps one more buffer.
-/

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v61) = W19 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v61 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c)⟩)

end Cert.KernelIdeal.Named

end
-- ==== Proof.Spec.lean ====
import Idealize.ShloMosaic.PureOps.Ideal
import Idealize.ShloMosaic.Lib.ValueIdx

/-!
The whole-array functions the six kernel regions compute, over the extended reals, index by index.
A graph-convolution layer is: a dense product, a gather of source rows, a per-edge scaling,
a scatter-sum onto target rows, and a bias (with or without a clamp at zero).  The three dense,
regular stages are the ones the kernel tiles; each tile is the restriction of one of the functions below.
-/

noncomputable section

namespace Cert.Spec

open Idealize.ShloMosaic Idealize.ShloMosaic.ValueIdx

/-- The dense product: entry (i, j) is the sum over k of x(i,k) · w(k,j). -/
def mm {R K N : Nat} (x : (⟨2, ![R, K]⟩ : Shape).Idx → EReal) (w : (⟨2, ![K, N]⟩ : Shape).Idx → EReal) :
    (⟨2, ![R, N]⟩ : Shape).Idx → EReal :=
  fun i => ∑ k : Fin K, x (ix2 (i 0 : Fin R) k) * w (ix2 k (i 1 : Fin N))

/-- Row scaling: entry (e, f) of the gathered rows times the e-th weight (held as a one-column array). -/
def scale {E C : Nat} (hs : (⟨2, ![E, C]⟩ : Shape).Idx → EReal) (n : (⟨2, ![E, 1]⟩ : Shape).Idx → EReal) :
    (⟨2, ![E, C]⟩ : Shape).Idx → EReal :=
  fun i => hs i * n (ix2 (i 0 : Fin E) (0 : Fin 1))

/-- Bias row added along the rows. -/
def bias {R C : Nat} (a : (⟨2, ![R, C]⟩ : Shape).Idx → EReal) (b : (⟨2, ![1, C]⟩ : Shape).Idx → EReal) :
    (⟨2, ![R, C]⟩ : Shape).Idx → EReal :=
  fun i => a i + b (ix2 (0 : Fin 1) (i 1 : Fin C))

/-- Bias row added along the rows, then the clamp at zero. -/
def biasRelu {R C : Nat} (a : (⟨2, ![R, C]⟩ : Shape).Idx → EReal) (b : (⟨2, ![1, C]⟩ : Shape).Idx → EReal) :
    (⟨2, ![R, C]⟩ : Shape).Idx → EReal :=
  fun i => max (a i + b (ix2 (0 : Fin 1) (i 1 : Fin C))) 0

end Cert.Spec

end
-- ==== Proof.KernelValue.lean ====
import proofs.«176352_j70050916598092_1_alg».proof.Proof.Gen.KernelIdeal.Frame
import proofs.«176352_j70050916598092_1_alg».proof.Proof.Spec

/-!
The value the idealized kernel program computes, as one function of its argument arrays.

The edge list is the given edges followed by one self loop per node; `deg` counts, per node, the edges
that point at it; an edge's weight is the product of the inverse square roots of the degrees of its two
end points (zero where a degree is not positive).  The kernel pads the edge list to a whole number of
tiles with edges of weight zero.  A layer is: dense product, gather of source rows, scaling by the edge
weights, scatter-sum onto target rows, bias (and, in the first layer, the clamp at zero).
The last theorem walks the program's segment boundaries back from the result buffer to the launch
memory: a host stretch leaves in each buffer its operation's value of its operands' buffers, a region
leaves in its output array the whole-array function its tiles restrict, and every other buffer is kept.
-/

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil nullary_result' unary_result' binary_result' ternary_result' quaternary_result' reshape_result' nullary_result_ne' unary_result_ne' binary_result_ne' ternary_result_ne' quaternary_result_ne' reshape_result_ne')

/-- Source end points: the given ones, then each node once. -/
def src (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- Target end points: the given ones, then each node once. -/
def dst (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- The number of edges pointing at each node. -/
def deg (ei : IVec S2x1600000 32) : FVec Ideal S100000 .f32 :=
  Host.scatterAdd (F := Ideal) scatter_S100000_S1700000x1_S1700000_n_0_0_1 (broadcastInDim S100000 ![] bcast_S_S100000 (constant (F := Ideal) S_ .f32 0x00000000#32))
    (broadcastInDim S1700000x1 ![0] bcast_S1700000_S1700000x1_0 (dst ei)) (broadcastInDim S1700000 ![] bcast_S_S1700000 (constant (F := Ideal) S_ .f32 0x3F800000#32))

/-- The inverse square root of a positive degree, zero otherwise. -/
def dinv (ei : IVec S2x1600000 32) : FVec Ideal S100000 .f32 :=
  select (cmpf (F := Ideal) .ogt (deg ei) (broadcastInDim S100000 ![] bcast_S_S100000 (constant (F := Ideal) S_ .f32 0x00000000#32))) (Host.rsqrt (F := Ideal) (deg ei))
    (broadcastInDim S100000 ![] bcast_S_S100000 (id (constant (F := Ideal) S_ .f32 0x00000000#32)))

/-- A negative index counts from the end. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An edge's weight. -/
def nrm (ei : IVec S2x1600000 32) : FVec Ideal S1700000 .f32 :=
  mulf (Host.gather gather_S100000_S1700000x1_S1700000_n_0_n_n_0_1_1 (dinv ei) (broadcastInDim S1700000x1 ![0] bcast_S1700000_S1700000x1_0 (wrap (src ei))))
    (Host.gather gather_S100000_S1700000x1_S1700000_n_0_n_n_0_1_1 (dinv ei) (broadcastInDim S1700000x1 ![0] bcast_S1700000_S1700000x1_0 (wrap (dst ei))))

/-- The padded end points (the pad is node 0) and the padded weights (the pad is 0), the weights as a column. -/
def srcp (ei : IVec S2x1600000 32) : IVec S1703936 32 :=
  pad S1703936 ![0] ![3936] ![0] (src ei) (id (constantI S_ 32 0#32)) pads_S1700000_S1703936_039360 h_S_
def dstp (ei : IVec S2x1600000 32) : IVec S1703936 32 :=
  pad S1703936 ![0] ![3936] ![0] (dst ei) (id (constantI S_ 32 0#32)) pads_S1700000_S1703936_039360 h_S_
def n2d (ei : IVec S2x1600000 32) : FVec Ideal S1703936x1 .f32 :=
  shapeCast _ (pad S1703936 ![0] ![3936] ![0] (nrm ei) (id (constant (F := Ideal) S_ .f32 0x00000000#32)) pads_S1700000_S1703936_039360 h_S_) shapeCasts_S1703936_S1703936x1

/-- A negative index counts from the end (over the padded list). -/
def wrapP (v : IVec S1703936 32) : IVec S1703936 32 :=
  select (cmpi .slt v (broadcastInDim S1703936 ![] bcast_S_S1703936 (constantI S_ 32 0#32))) (addi v (broadcastInDim S1703936 ![] bcast_S_S1703936 (constantI S_ 32 100000#32))) v

/-- Gather, scale, scatter-sum over the padded edge list, 64 columns. -/
def agg64 (h : FVec Ideal S100000x64 .f32) (ei : IVec S2x1600000 32) : FVec Ideal S100000x64 .f32 :=
  Host.scatterAdd (F := Ideal) scatter_S100000x64_S1703936x1_S1703936x64_1_0_0_1 (broadcastInDim S100000x64 ![] bcast_S_S100000x64 (constant (F := Ideal) S_ .f32 0x00000000#32))
    (broadcastInDim S1703936x1 ![0] bcast_S1703936_S1703936x1_0 (dstp ei))
    (Cert.Spec.scale (Host.gather gather_S100000x64_S1703936x1_S1703936x64_1_0_n_n_0_1_164 h (broadcastInDim S1703936x1 ![0] bcast_S1703936_S1703936x1_0 (wrapP (srcp ei)))) (n2d ei))

/-- Gather, scale, scatter-sum over the padded edge list, 40 columns. -/
def agg40 (h : FVec Ideal S100000x40 .f32) (ei : IVec S2x1600000 32) : FVec Ideal S100000x40 .f32 :=
  Host.scatterAdd (F := Ideal) scatter_S100000x40_S1703936x1_S1703936x40_1_0_0_1 (broadcastInDim S100000x40 ![] bcast_S_S100000x40 (constant (F := Ideal) S_ .f32 0x00000000#32))
    (broadcastInDim S1703936x1 ![0] bcast_S1703936_S1703936x1_0 (dstp ei))
    (Cert.Spec.scale (Host.gather gather_S100000x40_S1703936x1_S1703936x40_1_0_n_n_0_1_140 h (broadcastInDim S1703936x1 ![0] bcast_S1703936_S1703936x1_0 (wrapP (srcp ei)))) (n2d ei))

/-- The two layers. -/
def out (x : FVec Ideal S100000x128 .f32) (ei : IVec S2x1600000 32) (w1 : FVec Ideal S128x64 .f32) (b1 : FVec Ideal S64 .f32)
    (w2 : FVec Ideal S64x40 .f32) (b2 : FVec Ideal S40 .f32) : FVec Ideal S100000x40 .f32 :=
  Cert.Spec.bias (agg40 (Cert.Spec.mm (Cert.Spec.biasRelu (agg64 (Cert.Spec.mm x w1) ei) (shapeCast _ b1 shapeCasts_S64_S1x64)) w2) ei) (shapeCast _ b2 shapeCasts_S40_S1x40)

end Cert.KernelIdeal.Val

end
-- ==== Proof.KernelChainA.lean ====
import proofs.«176352_j70050916598092_1_alg».proof.Proof.KernelValue

/-!
The host operations before the first region, read at the few buffers later segments use: the end points
of the edges (given edges, then one self loop per node), the number of edges pointing at each node, the
edge weights, and their padded forms.  The walk from the launch memory is cut at two boundaries (after the
degrees, after the edge weights): past a cut the contents before it are an unknown valuation of which only
the named arrays are known, as functions of the edge-index argument.
-/

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil nullary_result' unary_result' binary_result' ternary_result' quaternary_result' reshape_result' nullary_result_ne' unary_result_ne' binary_result_ne' ternary_result_ne' quaternary_result_ne' reshape_result_ne')
open Idealize.ShloMosaic.StableHlo

variable (m : (ℓ : Loc nD τ sig) → Buf (Elt Ideal) ℓ) (ρ : Dev nD → PrngReg)

/-! ## A value stored in a buffer of its own type, and read back from it, is the value -/
theorem toBuf_main_v14 (h1 : (main_v14 : Ref sig .tc).ty = ⟨S100000, .f32⟩) (h2 h3) (v : (⟨S100000, .f32⟩ : BufTy).Contents (Elt Ideal)) :
    (TRef.of (sig := sig) (T := ⟨S100000, .f32⟩) main_v14 h1 h2 h3).toBuf v = v := rfl
theorem ofBuf_main_v14 (h1 : (main_v14 : Ref sig .tc).ty = ⟨S100000, .f32⟩) (h2 h3) (v : (main_v14 : Ref sig .tc).ty.Contents (Elt Ideal)) :
    (TRef.of (sig := sig) (T := ⟨S100000, .f32⟩) main_v14 h1 h2 h3).ofBuf v = v := rfl
theorem toBuf_main_v12 (h1 : (main_v12 : Ref sig .tc).ty = ⟨S100000, .i1⟩) (h2 h3) (v : (⟨S100000, .i1⟩ : BufTy).Contents (Elt Ideal)) :
    (TRef.of (sig := sig) (T := ⟨S100000, .i1⟩) main_v12 h1 h2 h3).toBuf v = v := rfl
theorem ofBuf_main_v12 (h1 : (main_v12 : Ref sig .tc).ty = ⟨S100000, .i1⟩) (h2 h3) (v : (main_v12 : Ref sig .tc).ty.Contents (Elt Ideal)) :
    (TRef.of (sig := sig) (T := ⟨S100000, .i1⟩) main_v12 h1 h2 h3).ofBuf v = v := rfl
theorem toBuf_main_v13 (h1 : (main_v13 : Ref sig .tc).ty = ⟨S100000, .f32⟩) (h2 h3) (v : (⟨S100000, .f32⟩ : BufTy).Contents (Elt Ideal)) :
    (TRef.of (sig := sig) (T := ⟨S100000, .f32⟩) main_v13 h1 h2 h3).toBuf v = v := rfl
theorem ofBuf_main_v13 (h1 : (main_v13 : Ref sig .tc).ty = ⟨S100000, .f32⟩) (h2 h3) (v : (main_v13 : Ref sig .tc).ty.Contents (Elt Ideal)) :
    (TRef.of (sig := sig) (T := ⟨S100000, .f32⟩) main_v13 h1 h2 h3).ofBuf v = v := rfl
theorem toBuf_main_call0_v1 (h1 : (main_call0_v1 : Ref sig .tc).ty = ⟨S100000, .f32⟩) (h2 h3) (v : (⟨S100000, .f32⟩ : BufTy).Contents (Elt Ideal)) :
    (TRef.of (sig := sig) (T := ⟨S100000, .f32⟩) main_call0_v1 h1 h2 h3).toBuf v = v := rfl
theorem ofBuf_main_call0_v1 (h1 : (main_call0_v1 : Ref sig .tc).ty = ⟨S100000, .f32⟩) (h2 h3) (v : (main_call0_v1 : Ref sig .tc).ty.Contents (Elt Ideal)) :
    (TRef.of (sig := sig) (T := ⟨S100000, .f32⟩) main_call0_v1 h1 h2 h3).ofBuf v = v := rfl
theorem toBuf_main_call0_v0 (h1 : (main_call0_v0 : Ref sig .tc).ty = ⟨S_, .f32⟩) (h2 h3) (v : (⟨S_, .f32⟩ : BufTy).Contents (Elt Ideal)) :
    (TRef.of (sig := sig) (T := ⟨S_, .f32⟩) main_call0_v0 h1 h2 h3).toBuf v = v := rfl
theorem ofBuf_main_call0_v0 (h1 : (main_call0_v0 : Ref sig .tc).ty = ⟨S_, .f32⟩) (h2 h3) (v : (main_call0_v0 : Ref sig .tc).ty.Contents (Elt Ideal)) :
    (TRef.of (sig := sig) (T := ⟨S_, .f32⟩) main_call0_v0 h1 h2 h3).ofBuf v = v := rfl
theorem toBuf_main_cst_2 (h1 : (main_cst_2 : Ref sig .tc).ty = ⟨S_, .f32⟩) (h2 h3) (v : (⟨S_, .f32⟩ : BufTy).Contents (Elt Ideal)) :
    (TRef.of (sig := sig) (T := ⟨S_, .f32⟩) main_cst_2 h1 h2 h3).toBuf v = v := rfl
theorem ofBuf_main_cst_2 (h1 : (main_cst_2 : Ref sig .tc).ty = ⟨S_, .f32⟩) (h2 h3) (v : (main_cst_2 : Ref sig .tc).ty.Contents (Elt Ideal)) :
    (TRef.of (sig := sig) (T := ⟨S_, .f32⟩) main_cst_2 h1 h2 h3).ofBuf v = v := rfl
theorem toBuf_main_v30 (h1 : (main_v30 : Ref sig .tc).ty = ⟨S1703936, .i32⟩) (h2 h3) (v : (⟨S1703936, .i32⟩ : BufTy).Contents (Elt Ideal)) :
    (TRef.of (sig := sig) (T := ⟨S1703936, .i32⟩) main_v30 h1 h2 h3).toBuf v = v := rfl
theorem ofBuf_main_v30 (h1 : (main_v30 : Ref sig .tc).ty = ⟨S1703936, .i32⟩) (h2 h3) (v : (main_v30 : Ref sig .tc).ty.Contents (Elt Ideal)) :
    (TRef.of (sig := sig) (T := ⟨S1703936, .i32⟩) main_v30 h1 h2 h3).ofBuf v = v := rfl
theorem toBuf_main_v3 (h1 : (main_v3 : Ref sig .tc).ty = ⟨S1700000, .i32⟩) (h2 h3) (v : (⟨S1700000, .i32⟩ : BufTy).Contents (Elt Ideal)) :
    (TRef.of (sig := sig) (T := ⟨S1700000, .i32⟩) main_v3 h1 h2 h3).toBuf v = v := rfl
theorem ofBuf_main_v3 (h1 : (main_v3 : Ref sig .tc).ty = ⟨S1700000, .i32⟩) (h2 h3) (v : (main_v3 : Ref sig .tc).ty.Contents (Elt Ideal)) :
    (TRef.of (sig := sig) (T := ⟨S1700000, .i32⟩) main_v3 h1 h2 h3).ofBuf v = v := rfl
theorem toBuf_main_call1_v0 (h1 : (main_call1_v0 : Ref sig .tc).ty = ⟨S_, .i32⟩) (h2 h3) (v : (⟨S_, .i32⟩ : BufTy).Contents (Elt Ideal)) :
    (TRef.of (sig := sig) (T := ⟨S_, .i32⟩) main_call1_v0 h1 h2 h3).toBuf v = v := rfl
theorem ofBuf_main_call1_v0 (h1 : (main_call1_v0 : Ref sig .tc).ty = ⟨S_, .i32⟩) (h2 h3) (v : (main_call1_v0 : Ref sig .tc).ty.Contents (Elt Ideal)) :
    (TRef.of (sig := sig) (T := ⟨S_, .i32⟩) main_call1_v0 h1 h2 h3).ofBuf v = v := rfl
theorem toBuf_main_c_6 (h1 : (main_c_6 : Ref sig .tc).ty = ⟨S_, .i32⟩) (h2 h3) (v : (⟨S_, .i32⟩ : BufTy).Contents (Elt Ideal)) :
    (TRef.of (sig := sig) (T := ⟨S_, .i32⟩) main_c_6 h1 h2 h3).toBuf v = v := rfl
theorem ofBuf_main_c_6 (h1 : (main_c_6 : Ref sig .tc).ty = ⟨S_, .i32⟩) (h2 h3) (v : (main_c_6 : Ref sig .tc).ty.Contents (Elt Ideal)) :
    (TRef.of (sig := sig) (T := ⟨S_, .i32⟩) main_c_6 h1 h2 h3).ofBuf v = v := rfl
theorem toBuf_main_v31 (h1 : (main_v31 : Ref sig .tc).ty = ⟨S1703936, .i32⟩) (h2 h3) (v : (⟨S1703936, .i32⟩ : BufTy).Contents (Elt Ideal)) :
    (TRef.of (sig := sig) (T := ⟨S1703936, .i32⟩) main_v31 h1 h2 h3).toBuf v = v := rfl
theorem ofBuf_main_v31 (h1 : (main_v31 : Ref sig .tc).ty = ⟨S1703936, .i32⟩) (h2 h3) (v : (main_v31 : Ref sig .tc).ty.Contents (Elt Ideal)) :
    (TRef.of (sig := sig) (T := ⟨S1703936, .i32⟩) main_v31 h1 h2 h3).ofBuf v = v := rfl
theorem toBuf_main_v6 (h1 : (main_v6 : Ref sig .tc).ty = ⟨S1700000, .i32⟩) (h2 h3) (v : (⟨S1700000, .i32⟩ : BufTy).Contents (Elt Ideal)) :
    (TRef.of (sig := sig) (T := ⟨S1700000, .i32⟩) main_v6 h1 h2 h3).toBuf v = v := rfl
theorem ofBuf_main_v6 (h1 : (main_v6 : Ref sig .tc).ty = ⟨S1700000, .i32⟩) (h2 h3) (v : (main_v6 : Ref sig .tc).ty.Contents (Elt Ideal)) :
    (TRef.of (sig := sig) (T := ⟨S1700000, .i32⟩) main_v6 h1 h2 h3).ofBuf v = v := rfl
theorem toBuf_main_call2_v0 (h1 : (main_call2_v0 : Ref sig .tc).ty = ⟨S_, .i32⟩) (h2 h3) (v : (⟨S_, .i32⟩ : BufTy).Contents (Elt Ideal)) :
    (TRef.of (sig := sig) (T := ⟨S_, .i32⟩) main_call2_v0 h1 h2 h3).toBuf v = v := rfl
theorem ofBuf_main_call2_v0 (h1 : (main_call2_v0 : Ref sig .tc).ty = ⟨S_, .i32⟩) (h2 h3) (v : (main_call2_v0 : Ref sig .tc).ty.Contents (Elt Ideal)) :
    (TRef.of (sig := sig) (T := ⟨S_, .i32⟩) main_call2_v0 h1 h2 h3).ofBuf v = v := rfl
theorem toBuf_main_c_7 (h1 : (main_c_7 : Ref sig .tc).ty = ⟨S_, .i32⟩) (h2 h3) (v : (⟨S_, .i32⟩ : BufTy).Contents (Elt Ideal)) :
    (TRef.of (sig := sig) (T := ⟨S_, .i32⟩) main_c_7 h1 h2 h3).toBuf v = v := rfl
theorem ofBuf_main_c_7 (h1 : (main_c_7 : Ref sig .tc).ty = ⟨S_, .i32⟩) (h2 h3) (v : (main_c_7 : Ref sig .tc).ty.Contents (Elt Ideal)) :
    (TRef.of (sig := sig) (T := ⟨S_, .i32⟩) main_c_7 h1 h2 h3).ofBuf v = v := rfl
theorem toBuf_main_v32 (h1 : (main_v32 : Ref sig .tc).ty = ⟨S1703936, .f32⟩) (h2 h3) (v : (⟨S1703936, .f32⟩ : BufTy).Contents (Elt Ideal)) :
    (TRef.of (sig := sig) (T := ⟨S1703936, .f32⟩) main_v32 h1 h2 h3).toBuf v = v := rfl
theorem ofBuf_main_v32 (h1 : (main_v32 : Ref sig .tc).ty = ⟨S1703936, .f32⟩) (h2 h3) (v : (main_v32 : Ref sig .tc).ty.Contents (Elt Ideal)) :
    (TRef.of (sig := sig) (T := ⟨S1703936, .f32⟩) main_v32 h1 h2 h3).ofBuf v = v := rfl
theorem toBuf_main_v29 (h1 : (main_v29 : Ref sig .tc).ty = ⟨S1700000, .f32⟩) (h2 h3) (v : (⟨S1700000, .f32⟩ : BufTy).Contents (Elt Ideal)) :
    (TRef.of (sig := sig) (T := ⟨S1700000, .f32⟩) main_v29 h1 h2 h3).toBuf v = v := rfl
theorem ofBuf_main_v29 (h1 : (main_v29 : Ref sig .tc).ty = ⟨S1700000, .f32⟩) (h2 h3) (v : (main_v29 : Ref sig .tc).ty.Contents (Elt Ideal)) :
    (TRef.of (sig := sig) (T := ⟨S1700000, .f32⟩) main_v29 h1 h2 h3).ofBuf v = v := rfl
theorem toBuf_main_call3_v0 (h1 : (main_call3_v0 : Ref sig .tc).ty = ⟨S_, .f32⟩) (h2 h3) (v : (⟨S_, .f32⟩ : BufTy).Contents (Elt Ideal)) :
    (TRef.of (sig := sig) (T := ⟨S_, .f32⟩) main_call3_v0 h1 h2 h3).toBuf v = v := rfl
theorem ofBuf_main_call3_v0 (h1 : (main_call3_v0 : Ref sig .tc).ty = ⟨S_, .f32⟩) (h2 h3) (v : (main_call3_v0 : Ref sig .tc).ty.Contents (Elt Ideal)) :
    (TRef.of (sig := sig) (T := ⟨S_, .f32⟩) main_call3_v0 h1 h2 h3).ofBuf v = v := rfl
theorem toBuf_main_cst_8 (h1 : (main_cst_8 : Ref sig .tc).ty = ⟨S_, .f32⟩) (h2 h3) (v : (⟨S_, .f32⟩ : BufTy).Contents (Elt Ideal)) :
    (TRef.of (sig := sig) (T := ⟨S_, .f32⟩) main_cst_8 h1 h2 h3).toBuf v = v := rfl
theorem ofBuf_main_cst_8 (h1 : (main_cst_8 : Ref sig .tc).ty = ⟨S_, .f32⟩) (h2 h3) (v : (main_cst_8 : Ref sig .tc).ty.Contents (Elt Ideal)) :
    (TRef.of (sig := sig) (T := ⟨S_, .f32⟩) main_cst_8 h1 h2 h3).ofBuf v = v := rfl

/-! ## The arguments at the first region's entry: no host operation writes one -/
theorem W9_arg0 (c : Dev nD) : W9 m ρ c (no_index (Proc.devRef .tc main_arg0)) = m ((c.tc : Thread nD τ).loc main_arg0) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl
theorem W9_arg1 (c : Dev nD) : W9 m ρ c (no_index (Proc.devRef .tc main_arg1)) = m ((c.tc : Thread nD τ).loc main_arg1) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl
theorem W9_arg2 (c : Dev nD) : W9 m ρ c (no_index (Proc.devRef .tc main_arg2)) = m ((c.tc : Thread nD τ).loc main_arg2) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl
theorem W9_arg3 (c : Dev nD) : W9 m ρ c (no_index (Proc.devRef .tc main_arg3)) = m ((c.tc : Thread nD τ).loc main_arg3) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl
theorem W9_arg4 (c : Dev nD) : W9 m ρ c (no_index (Proc.devRef .tc main_arg4)) = m ((c.tc : Thread nD τ).loc main_arg4) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl
theorem W9_arg5 (c : Dev nD) : W9 m ρ c (no_index (Proc.devRef .tc main_arg5)) = m ((c.tc : Thread nD τ).loc main_arg5) := by
  simp (disch := decide) only [hostOps0, hostOps0_1, hostOps0_2, hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne']
  try rfl

/-! ## The end points, the degrees and their two derived arrays -/
theorem W1_main_v3 (c : Dev nD) : W1 m ρ c (no_index (Proc.devRef .tc main_v3)) = Val.src (m ((c.tc : Thread nD τ).loc main_arg1)) := by
  show StableHlo.after hostOps0 (W0 m ρ c) _ = _
  after_results
  rfl
theorem W1_main_v6 (c : Dev nD) : W1 m ρ c (no_index (Proc.devRef .tc main_v6)) = Val.dst (m ((c.tc : Thread nD τ).loc main_arg1)) := by
  show StableHlo.after hostOps0 (W0 m ρ c) _ = _
  after_results
  rfl
theorem W1_main_v10 (c : Dev nD) : W1 m ρ c (no_index (Proc.devRef .tc main_v10)) = Val.deg (m ((c.tc : Thread nD τ).loc main_arg1)) := by
  show StableHlo.after hostOps0 (W0 m ρ c) _ = _
  after_results
  rfl
theorem W1_main_v12 (c : Dev nD) : W1 m ρ c (no_index (Proc.devRef .tc main_v12)) = cmpf (F := Ideal) .ogt (Val.deg (m ((c.tc : Thread nD τ).loc main_arg1))) (broadcastInDim S100000 ![] bcast_S_S100000 (constant (F := Ideal) S_ .f32 0x00000000#32)) := by
  show StableHlo.after hostOps0 (W0 m ρ c) _ = _
  after_results
  rfl
theorem W1_main_v13 (c : Dev nD) : W1 m ρ c (no_index (Proc.devRef .tc main_v13)) = Host.rsqrt (F := Ideal) (Val.deg (m ((c.tc : Thread nD τ).loc main_arg1))) := by
  show StableHlo.after hostOps0 (W0 m ρ c) _ = _
  after_results
  rfl
theorem W1_main_cst_2 (c : Dev nD) : W1 m ρ c (no_index (Proc.devRef .tc main_cst_2)) = constant (F := Ideal) S_ .f32 0x00000000#32 := by
  show StableHlo.after hostOps0 (W0 m ρ c) _ = _
  after_results

/-! ## The end points again, the edge weights, the padding value -/
theorem W3_main_v3 (c : Dev nD) : W3 m ρ c (no_index (Proc.devRef .tc main_v3)) = Val.src (m ((c.tc : Thread nD τ).loc main_arg1)) := by
  have e0 := W1_main_v3 m ρ c
  have e1 := W1_main_v6 m ρ c
  have e2 := W1_main_v10 m ρ c
  have e3 := W1_main_v12 m ρ c
  have e4 := W1_main_v13 m ρ c
  have e5 := W1_main_cst_2 m ρ c
  show StableHlo.after hostOps0_2 (StableHlo.after hostOps0_1 (W1 m ρ c)) _ = _
  generalize W1 m ρ c = Y at e0 e1 e2 e3 e4 e5 ⊢
  simp (disch := decide) only [hostOps0_1, hostOps0_2, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3, e4, e5]
  try rfl
theorem W3_main_v6 (c : Dev nD) : W3 m ρ c (no_index (Proc.devRef .tc main_v6)) = Val.dst (m ((c.tc : Thread nD τ).loc main_arg1)) := by
  have e0 := W1_main_v3 m ρ c
  have e1 := W1_main_v6 m ρ c
  have e2 := W1_main_v10 m ρ c
  have e3 := W1_main_v12 m ρ c
  have e4 := W1_main_v13 m ρ c
  have e5 := W1_main_cst_2 m ρ c
  show StableHlo.after hostOps0_2 (StableHlo.after hostOps0_1 (W1 m ρ c)) _ = _
  generalize W1 m ρ c = Y at e0 e1 e2 e3 e4 e5 ⊢
  simp (disch := decide) only [hostOps0_1, hostOps0_2, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3, e4, e5]
  try rfl
theorem W3_main_v29 (c : Dev nD) : W3 m ρ c (no_index (Proc.devRef .tc main_v29)) = Val.nrm (m ((c.tc : Thread nD τ).loc main_arg1)) := by
  have e0 := W1_main_v3 m ρ c
  have e1 := W1_main_v6 m ρ c
  have e2 := W1_main_v10 m ρ c
  have e3 := W1_main_v12 m ρ c
  have e4 := W1_main_v13 m ρ c
  have e5 := W1_main_cst_2 m ρ c
  show StableHlo.after hostOps0_2 (StableHlo.after hostOps0_1 (W1 m ρ c)) _ = _
  generalize W1 m ρ c = Y at e0 e1 e2 e3 e4 e5 ⊢
  simp (disch := decide) only [hostOps0_1, hostOps0_2, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3, e4, e5]
  try rfl
theorem W3_main_c_6 (c : Dev nD) : W3 m ρ c (no_index (Proc.devRef .tc main_c_6)) = constantI S_ 32 0#32 := by
  have e0 := W1_main_v3 m ρ c
  have e1 := W1_main_v6 m ρ c
  have e2 := W1_main_v10 m ρ c
  have e3 := W1_main_v12 m ρ c
  have e4 := W1_main_v13 m ρ c
  have e5 := W1_main_cst_2 m ρ c
  show StableHlo.after hostOps0_2 (StableHlo.after hostOps0_1 (W1 m ρ c)) _ = _
  generalize W1 m ρ c = Y at e0 e1 e2 e3 e4 e5 ⊢
  simp (disch := decide) only [hostOps0_1, hostOps0_2, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3, e4, e5]
  try rfl

/-! ## The padded edge arrays at the first region's entry -/
theorem W9_main_v30 (c : Dev nD) : W9 m ρ c (no_index (Proc.devRef .tc main_v30)) = Val.srcp (m ((c.tc : Thread nD τ).loc main_arg1)) := by
  have e0 := W3_main_v3 m ρ c
  have e1 := W3_main_v6 m ρ c
  have e2 := W3_main_v29 m ρ c
  have e3 := W3_main_c_6 m ρ c
  show StableHlo.after hostOps0_8 (StableHlo.after hostOps0_7 (StableHlo.after hostOps0_6 (StableHlo.after hostOps0_5 (StableHlo.after hostOps0_4 (StableHlo.after hostOps0_3 (W3 m ρ c)))))) _ = _
  generalize W3 m ρ c = Y at e0 e1 e2 e3 ⊢
  simp (disch := decide) only [hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3]
  try rfl
theorem W9_main_v31 (c : Dev nD) : W9 m ρ c (no_index (Proc.devRef .tc main_v31)) = Val.dstp (m ((c.tc : Thread nD τ).loc main_arg1)) := by
  have e0 := W3_main_v3 m ρ c
  have e1 := W3_main_v6 m ρ c
  have e2 := W3_main_v29 m ρ c
  have e3 := W3_main_c_6 m ρ c
  show StableHlo.after hostOps0_8 (StableHlo.after hostOps0_7 (StableHlo.after hostOps0_6 (StableHlo.after hostOps0_5 (StableHlo.after hostOps0_4 (StableHlo.after hostOps0_3 (W3 m ρ c)))))) _ = _
  generalize W3 m ρ c = Y at e0 e1 e2 e3 ⊢
  simp (disch := decide) only [hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3]
  try rfl
theorem W9_main_v33 (c : Dev nD) : W9 m ρ c (no_index (Proc.devRef .tc main_v33)) = Val.n2d (m ((c.tc : Thread nD τ).loc main_arg1)) := by
  have e0 := W3_main_v3 m ρ c
  have e1 := W3_main_v6 m ρ c
  have e2 := W3_main_v29 m ρ c
  have e3 := W3_main_c_6 m ρ c
  show StableHlo.after hostOps0_8 (StableHlo.after hostOps0_7 (StableHlo.after hostOps0_6 (StableHlo.after hostOps0_5 (StableHlo.after hostOps0_4 (StableHlo.after hostOps0_3 (W3 m ρ c)))))) _ = _
  generalize W3 m ρ c = Y at e0 e1 e2 e3 ⊢
  simp (disch := decide) only [hostOps0_3, hostOps0_4, hostOps0_5, hostOps0_6, hostOps0_7, hostOps0_8, after_cons, after_nil, nullary_result', unary_result', binary_result', ternary_result', quaternary_result', reshape_result',
    nullary_result_ne', unary_result_ne', binary_result_ne', ternary_result_ne', quaternary_result_ne', reshape_result_ne', toBuf_main_v14, ofBuf_main_v14, toBuf_main_v12, ofBuf_main_v12, toBuf_main_v13, ofBuf_main_v13, toBuf_main_call0_v1, ofBuf_main_call0_v1, toBuf_main_call0_v0, ofBuf_main_call0_v0, toBuf_main_cst_2, ofBuf_main_cst_2, toBuf_main_v30, ofBuf_main_v30, toBuf_main_v3, ofBuf_main_v3, toBuf_main_call1_v0, ofBuf_main_call1_v0, toBuf_main_c_6, ofBuf_main_c_6, toBuf_main_v31, ofBuf_main_v31, toBuf_main_v6, ofBuf_main_v6, toBuf_main_call2_v0, ofBuf_main_call2_v0, toBuf_main_c_7, ofBuf_main_c_7, toBuf_main_v32, ofBuf_main_v32, toBuf_main_v29, ofBuf_main_v29, toBuf_main_call3_v0, ofBuf_main_call3_v0, toBuf_main_cst_8, ofBuf_main_cst_8, e0, e1, e2, e3]
  try rfl

end Cert.KernelIdeal.Chain

end
-- ==== Proof.KernelChain.lean ====
import proofs.«176352_j70050916598092_1_alg».proof.Proof.KernelChainA

/-!
The idealized kernel program's result buffer, read back through its segment boundaries to the launch
memory: a host stretch leaves in each buffer its operation's value of its operands' buffers, a region
leaves in its output array the whole-array function its tiles restrict (the six hypotheses), and every
other buffer is kept.  What comes out is `Val.out` of the six argument arrays: two rounds of dense
product, gather of source rows, scaling by the edge weights, scatter-sum onto target rows, bias.
-/

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil nullary_result' unary_result' binary_result' ternary_result' quaternary_result' reshape_result' nullary_result_ne' unary_result_ne' binary_result_ne' ternary_result_ne' quaternary_result_ne' reshape_result_ne')
open Idealize.ShloMosaic.StableHlo

variable (m : (ℓ : Loc nD τ sig) → Buf (Elt Ideal) ℓ) (ρ : Dev nD → PrngReg)

/-! ## Which buffer each window of each later region stages -/
theorem arr1_0 : Pipeline.arrRef spec1 (0 : Fin cfg1.W) = main_v41 := rfl
theorem arr1_1 : Pipeline.arrRef spec1 (1 : Fin cfg1.W) = main_v33 := rfl
theorem arr1_2 : Pipeline.arrRef spec1 (2 : Fin cfg1.W) = main_v42 := rfl
theorem arr2_0 : Pipeline.arrRef spec2 (0 : Fin cfg2.W) = main_v45 := rfl
theorem arr2_1 : Pipeline.arrRef spec2 (1 : Fin cfg2.W) = main_v46 := rfl
theorem arr2_2 : Pipeline.arrRef spec2 (2 : Fin cfg2.W) = main_v47 := rfl
theorem arr3_0 : Pipeline.arrRef spec3 (0 : Fin cfg3.W) = main_v47 := rfl
theorem arr3_1 : Pipeline.arrRef spec3 (1 : Fin cfg3.W) = main_arg4 := rfl
theorem arr3_2 : Pipeline.arrRef spec3 (2 : Fin cfg3.W) = main_v48 := rfl
theorem arr4_0 : Pipeline.arrRef spec4 (0 : Fin cfg4.W) = main_v55 := rfl
theorem arr4_1 : Pipeline.arrRef spec4 (1 : Fin cfg4.W) = main_v33 := rfl
theorem arr4_2 : Pipeline.arrRef spec4 (2 : Fin cfg4.W) = main_v56 := rfl
theorem arr5_0 : Pipeline.arrRef spec5 (0 : Fin cfg5.W) = main_v59 := rfl
theorem arr5_1 : Pipeline.arrRef spec5 (1 : Fin cfg5.W) = main_v60 := rfl
theorem arr5_2 : Pipeline.arrRef spec5 (2 : Fin cfg5.W) = main_v61 := rfl

/-! ## After the first region: its product, and the arrays later segments still read -/
theorem W10_main_v34 (hf0 : ∀ (V : (c : Dev nD) → (b : Ref sig .tc) → Buf (Elt Ideal) ((c : Thread nD τ).loc b)) (c : Dev nD), (dat0 (F := Ideal) V c).arrAt 2 cfg0.N = Cert.Spec.mm (R := 100000) (K := 128) (N := 64) (V c (Pipeline.arrRef spec0 0)) (V c (Pipeline.arrRef spec0 1))) (c : Dev nD) :
    W10 m ρ c (no_index (Proc.devRef .tc main_v34)) = Cert.Spec.mm (R := 100000) (K := 128) (N := 64) (m ((c.tc : Thread nD τ).loc main_arg0)) (m ((c.tc : Thread nD τ).loc main_arg2)) := by
  refine (W10_arr m ρ c 2).trans ((hf0 (V9 m ρ) c).trans ?_)
  show Cert.Spec.mm (R := 100000) (K := 128) (N := 64) (W9 m ρ c (Proc.devRef .tc main_arg0)) (W9 m ρ c (Proc.devRef .tc main_arg2)) = _
  rw [W9_arg0 m ρ c, W9_arg2 m ρ c]
theorem W10_main_v30 (c : Dev nD) : W10 m ρ c (no_index (Proc.devRef .tc main_v30)) = Val.srcp (m ((c.tc : Thread nD τ).loc main_arg1)) :=
  (W10_of_ne m ρ c main_v30 (by decide)).trans (W9_main_v30 m ρ c)
theorem W10_main_v31 (c : Dev nD) : W10 m ρ c (no_index (Proc.devRef .tc main_v31)) = Val.dstp (m ((c.tc : Thread nD τ).loc main_arg1)) :=
  (W10_of_ne m ρ c main_v31 (by decide)).trans (W9_main_v31 m ρ c)
theorem W10_main_v33 (c : Dev nD) : W10 m ρ c (no_index (Proc.devRef .tc main_v33)) = Val.n2d (m ((c.tc : Thread nD τ).loc main_arg1)) :=
  (W10_of_ne m ρ c main_v33 (by decide)).trans (W9_main_v33 m ρ c)
theorem W10_main_arg3 (c : Dev nD) : W10 m ρ c (no_index (Proc.devRef .tc main_arg3)) = m ((c.tc : Thread nD τ).loc main_arg3) :=
  (W10_of_ne m ρ c main_arg3 (by decide)).trans (W9_arg3 m ρ c)
theorem W10_main_arg4 (c : Dev nD) : W10 m ρ c (no_index (Proc.devRef .tc main_arg4)) = m ((c.tc : Thread nD τ).loc main_arg4) :=
  (W10_of_ne m ρ c main_arg4 (by decide)).trans (W9_arg4 m ρ c)
theorem W10_main_arg5 (c : Dev nD) : W10 m ρ c (no_index (Proc.devRef .tc main_arg5)) = m ((c.tc : Thread nD τ).loc main_arg5) :=
  (W10_of_ne m ρ c main_arg5 (by decide)).trans (W9_arg5 m ρ c)

/-! ## A later region's output array at its exit; an array a region leaves alone -/
theorem W12_out (c : Dev nD) : W12 m ρ c (no_index (Proc.devRef .tc main_v42)) = (dat1 (V11 m ρ) c).arrAt 2 cfg1.N := W12_arr m ρ c 2
theorem W14_out (c : Dev nD) : W14 m ρ c (no_index (Proc.devRef .tc main_v47)) = (dat2 (V13 m ρ) c).arrAt 2 cfg2.N := W14_arr m ρ c 2
theorem W15_out (c : Dev nD) : W15 m ρ c (no_index (Proc.devRef .tc main_v48)) = (dat3 (V14 m ρ) c).arrAt 2 cfg3.N := W15_arr m ρ c 2
theorem W17_out (c : Dev nD) : W17 m ρ c (no_index (Proc.devRef .tc main_v56)) = (dat4 (V16 m ρ) c).arrAt 2 cfg4.N := W17_arr m ρ c 2
theorem W19_out (c : Dev nD) : W19 m ρ c (Proc.devRef .tc main_v61) = (dat5 (V18 m ρ) c).arrAt 2 cfg5.N := W19_arr m ρ c 2
theorem W12_in1 (c : Dev nD) : W12 m ρ c (no_index (Proc.devRef .tc main_v33)) = W11 m ρ c (Proc.devRef .tc main_v33) :=
  (W12_arr m ρ c 1).trans (((dat1 (V11 m ρ) c).arrAt_in 1 rfl _).trans (A_eq1 (V11 m ρ) c 1))
theorem W17_in1 (c : Dev nD) : W17 m ρ c (no_index (Proc.devRef .tc main_v33)) = W16 m ρ c (Proc.devRef .tc main_v33) :=
  (W17_arr m ρ c 1).trans (((dat4 (V16 m ρ) c).arrAt_in 1 rfl _).trans (A_eq4 (V16 m ρ) c 1))
theorem W12_keep (c : Dev nD) (b : Ref sig .tc) (hb : ∀ w, Pipeline.arrRef spec1 w ≠ b) : W12 m ρ c (no_index (Proc.devRef .tc b)) = W11 m ρ c (Proc.devRef .tc b) := W12_of_ne m ρ c b hb
theorem W14_keep (c : Dev nD) (b : Ref sig .tc) (hb : ∀ w, Pipeline.arrRef spec2 w ≠ b) : W14 m ρ c (no_index (Proc.devRef .tc b)) = W13 m ρ c (Proc.devRef .tc b) := W14_of_ne m ρ c b hb
theorem W15_keep (c : Dev nD) (b : Ref sig .tc) (hb : ∀ w, Pipeline.arrRef spec3 w ≠ b) : W15 m ρ c (no_index (Proc.devRef .tc b)) = W14 m ρ c (Proc.devRef .tc b) := W15_of_ne m ρ c b hb
theorem W17_keep (c : Dev nD) (b : Ref sig .tc) (hb : ∀ w, Pipeline.arrRef spec4 w ≠ b) : W17 m ρ c (no_index (Proc.devRef .tc b)) = W16 m ρ c (Proc.devRef .tc b) := W17_of_ne m ρ c b hb

set_option maxHeartbeats 4000000 in
/-- The result buffer at the last boundary is `Val.out` of the launch contents of the arguments. -/
theorem value
    (hf0 : ∀ (V : (c : Dev nD) → (b : Ref sig .tc) → Buf (Elt Ideal) ((c : Thread nD τ).loc b)) (c : Dev nD), (dat0 (F := Ideal) V c).arrAt 2 cfg0.N = Cert.Spec.mm (R := 100000) (K := 128) (N := 64) (V c (Pipeline.arrRef spec0 0)) (V c (Pipeline.arrRef spec0 1)))
    (hf1 : ∀ (V : (c : Dev nD) → (b : Ref sig .tc) → Buf (Elt Ideal) ((c : Thread nD τ).loc b)) (c : Dev nD), (dat1 (F := Ideal) V c).arrAt 2 cfg1.N = Cert.Spec.scale (V c (Pipeline.arrRef spec1 0)) (V c (Pipeline.arrRef spec1 1)))
    (hf2 : ∀ (V : (c : Dev nD) → (b : Ref sig .tc) → Buf (Elt Ideal) ((c : Thread nD τ).loc b)) (c : Dev nD), (dat2 (F := Ideal) V c).arrAt 2 cfg2.N = Cert.Spec.biasRelu (V c (Pipeline.arrRef spec2 0)) (V c (Pipeline.arrRef spec2 1)))
    (hf3 : ∀ (V : (c : Dev nD) → (b : Ref sig .tc) → Buf (Elt Ideal) ((c : Thread nD τ).loc b)) (c : Dev nD), (dat3 (F := Ideal) V c).arrAt 2 cfg3.N = Cert.Spec.mm (R := 100000) (K := 64) (N := 40) (V c (Pipeline.arrRef spec3 0)) (V c (Pipeline.arrRef spec3 1)))
    (hf4 : ∀ (V : (c : Dev nD) → (b : Ref sig .tc) → Buf (Elt Ideal) ((c : Thread nD τ).loc b)) (c : Dev nD), (dat4 (F := Ideal) V c).arrAt 2 cfg4.N = Cert.Spec.scale (V c (Pipeline.arrRef spec4 0)) (V c (Pipeline.arrRef spec4 1)))
    (hf5 : ∀ (V : (c : Dev nD) → (b : Ref sig .tc) → Buf (Elt Ideal) ((c : Thread nD τ).loc b)) (c : Dev nD), (dat5 (F := Ideal) V c).arrAt 2 cfg5.N = Cert.Spec.bias (V c (Pipeline.arrRef spec5 0)) (V c (Pipeline.arrRef spec5 1)))
    (c : Dev nD) :
    W19 m ρ c (Proc.devRef .tc main_v61)
      = Val.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [W19_out, hf5]
  simp (disch := decide) only [V11, V13, V14, V16, V18, hostOps1, hostOps2, hostOps4, hostOps5, after_cons, after_nil, nullary_result', unary_result', binary_result', ternary_result', quaternary_result', reshape_result',
    nullary_result_ne', unary_result_ne', binary_result_ne', ternary_result_ne', quaternary_result_ne', reshape_result_ne',
    arr1_0, arr1_1, arr1_2, arr2_0, arr2_1, arr2_2, arr3_0, arr3_1, arr3_2, arr4_0, arr4_1, arr4_2, arr5_0, arr5_1, arr5_2,
    W12_out, W14_out, W15_out, W17_out, W12_in1, W17_in1, hf1, hf2, hf3, hf4,
    W12_keep, W14_keep, W15_keep, W17_keep, W10_main_v34 m ρ hf0, W10_main_v30, W10_main_v31, W10_main_v33, W10_main_arg3, W10_main_arg4, W10_main_arg5]
  try rfl

end Cert.KernelIdeal.Chain

end
-- ==== Proof.EdgeIdent.lean ====
import proofs.«176352_j70050916598092_1_alg».proof.Proof.RefRead
import proofs.«176352_j70050916598092_1_alg».proof.Proof.KernelValue

/-!
The edge arrays of the two programs are the same functions of the edge-index argument: both programs build
the end points, the degrees and the edge weights by the same operations, the reference doing so once per layer.
-/

set_option maxRecDepth 16384

noncomputable section

namespace Cert.Bridge

open Idealize.ShloMosaic
open Cert.KernelIdeal (S2x1600000)

variable (ei : IVec S2x1600000 32)

theorem src_eq : Cert.KernelIdeal.Val.src ei = Cert.ReferenceIdeal.ReadP.val_main_v3 (F := Ideal) ei := rfl
theorem dst_eq : Cert.KernelIdeal.Val.dst ei = Cert.ReferenceIdeal.ReadP.val_main_v6 (F := Ideal) ei := rfl
theorem wsrc_eq1 : Cert.KernelIdeal.Val.wrap (Cert.KernelIdeal.Val.src ei) = Cert.ReferenceIdeal.ReadP.val_main_v35 (F := Ideal) ei := rfl
theorem wsrc_eq2 : Cert.KernelIdeal.Val.wrap (Cert.KernelIdeal.Val.src ei) = Cert.ReferenceIdeal.ReadP.val_main_v76 (F := Ideal) ei := rfl
theorem nrm_eq1 : Cert.KernelIdeal.Val.nrm ei = Cert.ReferenceIdeal.ReadP.val_main_v30 (F := Ideal) ei := rfl
theorem nrm_eq2 : Cert.KernelIdeal.Val.nrm ei = Cert.ReferenceIdeal.ReadP.val_main_v71 (F := Ideal) ei := rfl

end Cert.Bridge

end
-- ==== Proof.EdgePad.lean ====
import proofs.«176352_j70050916598092_1_alg».proof.Proof.KernelValue
import Idealize.ShloMosaic.Lib.KernelVsHost
import Idealize.ShloMosaic.Lib.Pipeline.Value
import Idealize.ShloMosaic.PureOps.Ideal.Laws

/-!
The kernel pads the edge list from 1700000 to 1703936 entries: the end points with node 0, the weights with 0.
Below the original length the padded arrays are the original ones (so is the end point read with a negative
index counted from the end); from the original length on, the weight is 0 — a padded edge adds nothing to the
scatter-sum, whatever row it gathers.
-/

noncomputable section

namespace Cert.Bridge

open Idealize.ShloMosaic Idealize.ShloMosaic.ValueIdx Cert.KernelIdeal Cert.KernelIdeal.Gen Cert.KernelIdeal.Val

/-- A list padded at its end, read below the original length, is the list. -/
theorem pad_low {α : Type} (x : S1700000.Idx → α) (v : S_.Idx → α)
    (h : S1700000.Pads (![0] : Fin 1 → Nat) ![3936] ![0] S1703936) (hu : 0 < S_.numel) (e : Fin 1700000) :
    pad S1703936 ![0] ![3936] ![0] x v h hu (ix1 (Fin.castLE (by omega : 1700000 ≤ 1703936) e)) = x (ix1 e) := by
  refine pad_apply_of_inside _ _ _ x v h hu _ (ix1 e) fun a => ?_
  match a with
  | ⟨0, _⟩ => show e.val = 0 + e.val * (0 + 1); omega

/-- A list padded at its end, read from the original length on, is the padding value. -/
theorem pad_high {α : Type} (x : S1700000.Idx → α) (v : S_.Idx → α)
    (h : S1700000.Pads (![0] : Fin 1 → Nat) ![3936] ![0] S1703936) (hu : 0 < S_.numel) (e : Fin 1703936)
    (he : 1700000 ≤ e.val) :
    pad S1703936 ![0] ![3936] ![0] x v h hu (ix1 e) = v ix0 := by
  refine (pad_apply_of_not_inside _ _ _ x v h hu (ix1 e) (0 : Fin 1) ?_).trans (congrArg v (eq_ix0 _))
  show ¬(0 ≤ e.val ∧ (e.val - 0) % (0 + 1) = 0 ∧ (e.val - 0) / (0 + 1) < 1700000)
  omega

/-- Counting a negative index from the end, entry by entry (the original list). -/
theorem wrap_apply (v : IVec S1700000 32) (j : S1700000.Idx) :
    wrap v j = Scalar.select (IntOp.cmpi .slt (v j) 0#32) (IntOp.addi (v j) 100000#32) (v j) := rfl

/-- Counting a negative index from the end, entry by entry (the padded list). -/
theorem wrapP_apply (v : IVec S1703936 32) (j : S1703936.Idx) :
    wrapP v j = Scalar.select (IntOp.cmpi .slt (v j) 0#32) (IntOp.addi (v j) 100000#32) (v j) := rfl

/-- Below the original length, the padded source end point (negative indices counted from the end) is the original one. -/
theorem srcw_low (ei : IVec S2x1600000 32) (e : Fin 1700000) :
    wrapP (srcp ei) (ix1 (Fin.castLE (by omega : 1700000 ≤ 1703936) e)) = wrap (src ei) (ix1 e) := by
  rw [wrapP_apply, wrap_apply]
  unfold srcp
  rw [pad_low]

/-- Below the original length, the padded target end point is the original one. -/
theorem dst_low (ei : IVec S2x1600000 32) (e : Fin 1700000) :
    dstp ei (ix1 (Fin.castLE (by omega : 1700000 ≤ 1703936) e)) = dst ei (ix1 e) := by
  unfold dstp
  rw [pad_low]

/-- Below the original length, the padded weight column holds the edge's weight. -/
theorem n2d_low (ei : IVec S2x1600000 32) (e : Fin 1700000) :
    n2d ei (ix2 (Fin.castLE (by omega : 1700000 ≤ 1703936) e) (0 : Fin 1)) = nrm ei (ix1 e) := by
  unfold n2d
  refine (shapeCast_apply _ shapeCasts_S1703936_S1703936x1 (ix2 (Fin.castLE (by omega : 1700000 ≤ 1703936) e) (0 : Fin 1))
    (ix1 (Fin.castLE (by omega : 1700000 ≤ 1703936) e)) ?_).trans (pad_low _ _ _ _ e)
  rw [Shape.rowMajor_val_one, Shape.rowMajor_val_two]
  show e.val = e.val * 1 + 0
  omega

/-- From the original length on, the padded weight column holds 0. -/
theorem n2d_high (ei : IVec S2x1600000 32) (e : Fin 1703936) (h : 1700000 ≤ e.val) :
    n2d ei (ix2 e (0 : Fin 1)) = 0 := by
  unfold n2d
  refine (shapeCast_apply _ shapeCasts_S1703936_S1703936x1 (ix2 e (0 : Fin 1)) (ix1 e) ?_).trans
    ((pad_high _ _ _ _ e h).trans ?_)
  · rw [Shape.rowMajor_val_one, Shape.rowMajor_val_two]
    show e.val = e.val * 1 + 0
    omega
  · show Ideal.ofBits .f32 0x00000000#32 = 0
    exact Ideal.ofBits_zero_f32

end Cert.Bridge

end
-- ==== Proof.DenseBias.lean ====
import proofs.«176352_j70050916598092_1_alg».proof.Proof.RefRead
import proofs.«176352_j70050916598092_1_alg».proof.Proof.KernelValue

/-!
The reference's dense stages are the target functions.  A contraction of a [100000,K] array with a [K,N] array over
the axis of length K is the dense product, entry by entry; a bias row of length C, reshaped to one row of C columns, and
added along the rows is the reference's two-step broadcast of that row added to the array; the clamp at zero is the
maximum with the broadcast zero.
-/

noncomputable section

namespace Cert.Bridge

open Idealize.ShloMosaic Idealize.ShloMosaic.ValueIdx

/-- The first layer's contraction, [100000,128] with [128,64] over the axis of length 128, is the dense product. -/
theorem dot128 (x : FVec Ideal Cert.ReferenceIdeal.S100000x128 .f32) (w : FVec Ideal Cert.ReferenceIdeal.S128x64 .f32) :
    Host.dotGeneral (F := Ideal) Cert.ReferenceIdeal.dot_S100000x128_S128x64_S100000x64_1_0_0_1_n_n none x w
      = Cert.Spec.mm (R := 100000) (K := 128) (N := 64) x w := by
  funext i
  simp only [Host.dotGeneral]
  rw [Ideal.dotGeneral_apply, ← Equiv.sum_comp (contrEquiv1 Cert.ReferenceIdeal.dot_S100000x128_S128x64_S100000x64_1_0_0_1_n_n 128 rfl rfl).symm]
  unfold Cert.Spec.mm
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((contrEquiv1 Cert.ReferenceIdeal.dot_S100000x128_S128x64_S100000x64_1_0_0_1_n_n 128 rfl rfl).symm k) = ix2 (i 0 : Fin 100000) k := funext fun a => Fin.ext (by
    match a with
    | ⟨0, _⟩ => exact Cert.ReferenceIdeal.ReadP.lhs_main_v7_0 _ _
    | ⟨1, _⟩ => exact (Cert.ReferenceIdeal.ReadP.lhs_main_v7_1 _ _).trans hk)
  have er : Cert.ReferenceIdeal.dot_S100000x128_S128x64_S100000x64_1_0_0_1_n_n.rhsIdx i ((contrEquiv1 Cert.ReferenceIdeal.dot_S100000x128_S128x64_S100000x64_1_0_0_1_n_n 128 rfl rfl).symm k) = ix2 k (i 1 : Fin 64) := funext fun a => Fin.ext (by
    match a with
    | ⟨0, _⟩ => exact (Cert.ReferenceIdeal.ReadP.rhs_main_v7_0 _ _).trans hk
    | ⟨1, _⟩ => exact Cert.ReferenceIdeal.ReadP.rhs_main_v7_1 _ _)
  rw [el, er]
  rfl

/-- The second layer's contraction, [100000,64] with [64,40] over the axis of length 64, is the dense product. -/
theorem dot64 (h : FVec Ideal Cert.ReferenceIdeal.S100000x64 .f32) (w : FVec Ideal Cert.ReferenceIdeal.S64x40 .f32) :
    Host.dotGeneral (F := Ideal) Cert.ReferenceIdeal.dot_S100000x64_S64x40_S100000x40_1_0_0_1_n_n none h w
      = Cert.Spec.mm (R := 100000) (K := 64) (N := 40) h w := by
  funext i
  simp only [Host.dotGeneral]
  rw [Ideal.dotGeneral_apply, ← Equiv.sum_comp (contrEquiv1 Cert.ReferenceIdeal.dot_S100000x64_S64x40_S100000x40_1_0_0_1_n_n 64 rfl rfl).symm]
  unfold Cert.Spec.mm
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx i ((contrEquiv1 Cert.ReferenceIdeal.dot_S100000x64_S64x40_S100000x40_1_0_0_1_n_n 64 rfl rfl).symm k) = ix2 (i 0 : Fin 100000) k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S100000x64_S64x40_S100000x40_1_0_0_1_n_n.rhsIdx i ((contrEquiv1 Cert.ReferenceIdeal.dot_S100000x64_S64x40_S100000x40_1_0_0_1_n_n 64 rfl rfl).symm k) = ix2 k (i 1 : Fin 40) := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]
  rfl

/-- The first layer's bias and clamp: the row of 64 biases reshaped to [1,64] and added along the rows, then the
    maximum with zero, is the reference's sum with the twice-broadcast row and its maximum with the broadcast zero. -/
theorem biasRelu_eq (a : FVec Ideal Cert.ReferenceIdeal.S100000x64 .f32) (b1 : FVec Ideal Cert.ReferenceIdeal.S64 .f32) :
    Cert.Spec.biasRelu (R := 100000) (C := 64) a (shapeCast _ b1 Cert.KernelIdeal.Gen.shapeCasts_S64_S1x64)
      = maximumf (addf a (Cert.ReferenceIdeal.ReadP.val_main_v45 (F := Ideal) b1)) (Cert.ReferenceIdeal.ReadP.val_main_call1_v0 (F := Ideal)) := by
  funext i
  unfold Cert.Spec.biasRelu
  rw [maximumf_apply, addf_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  rw [shapeCast_apply b1 Cert.KernelIdeal.Gen.shapeCasts_S64_S1x64 (ix2 (0 : Fin 1) (i 1 : Fin 64))
    (Cert.ReferenceIdeal.ReadP.idx_main_v44 (Cert.ReferenceIdeal.ReadP.idx_main_v45 i))
    (by rw [Shape.rowMajor_val_one, Shape.rowMajor_val_two]; show (i 1).val = 0 * 64 + (i 1).val; omega)]
  show max _ 0 = max _ (Ideal.ofBits .f32 0x00000000#32)
  rw [Ideal.ofBits_zero_f32]

/-- The second layer's bias: the row of 40 biases reshaped to [1,40] and added along the rows is the reference's sum
    with the twice-broadcast row. -/
theorem bias_eq (a : FVec Ideal Cert.ReferenceIdeal.S100000x40 .f32) (b2 : FVec Ideal Cert.ReferenceIdeal.S40 .f32) :
    Cert.Spec.bias (R := 100000) (C := 40) a (shapeCast _ b2 Cert.KernelIdeal.Gen.shapeCasts_S40_S1x40)
      = addf a (Cert.ReferenceIdeal.ReadP.val_main_v86 (F := Ideal) b2) := by
  funext i
  unfold Cert.Spec.bias
  rw [addf_apply, Cert.ReferenceIdeal.ReadP.val_main_v86_apply, Cert.ReferenceIdeal.ReadP.val_main_v85_apply]
  rw [shapeCast_apply b2 Cert.KernelIdeal.Gen.shapeCasts_S40_S1x40 (ix2 (0 : Fin 1) (i 1 : Fin 40))
    (Cert.ReferenceIdeal.ReadP.idx_main_v85 (Cert.ReferenceIdeal.ReadP.idx_main_v86 i))
    (by rw [Shape.rowMajor_val_one, Shape.rowMajor_val_two]; show (i 1).val = 0 * 40 + (i 1).val; omega)]

end Cert.Bridge

end
-- ==== Proof.LibScatterCount.lean ====
/-
  The accumulating scatter that counts, for every node, the edges arriving at it, read over the extended reals.

  Two programs count the same thing in two layouts.  One adds a vector of E update entries into a vector of N
  entries; the other adds a column of E update entries (an E x 1 array) into a column of N entries (an N x 1 array).
  Both read the destination of update e from the same E x 1 table of signed integers, and an update whose destination
  is below 0 or not below N is dropped.  This file shows that update e lands, in either layout, exactly at the node
  whose number is the table's entry (e, 0), and concludes that the two results agree entry by entry whenever the two
  operands do and the two update arrays do:  result_column (n, 0) = result_vector (n).
-/
import Idealize.ShloMosaic.Lib.ValueIdx
import Idealize.ShloMosaic.PureOps.Ideal

noncomputable section

open scoped BigOperators

namespace Cert.Lib.ScatterCount

open Idealize.ShloMosaic Idealize.ShloMosaic.ValueIdx

/-- The vector form's dimension numbers. -/
def vecDims : ScatterDims ⟨1, ![100000]⟩ ⟨2, ![1600000, 1]⟩ ⟨1, ![1600000]⟩ where
  updateWindowDims := []
  insertedWindowDims := [0]
  scatterDimsToOperandDims := [0]
  indexVectorDim := 1

/-- The column form's dimension numbers. -/
def colDims : ScatterDims ⟨2, ![100000, 1]⟩ ⟨2, ![1600000, 1]⟩ ⟨2, ![1600000, 1]⟩ where
  updateWindowDims := [1]
  insertedWindowDims := [0]
  scatterDimsToOperandDims := [0]
  indexVectorDim := 1

/-- An update lands at the operand index i exactly when, on every operand axis, its window's start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro hi a
      rw [← hi]
      have := (h a).1
      simp only [Int.toNat_of_nonneg this]
    · intro H
      funext a
      refine Fin.ext ?_
      simp only [H a, Int.toNat_natCast]
  · constructor
    · intro hn
      cases hn
    · intro H
      exfalso
      refine h fun a => ?_
      rw [H a]
      have := (i a).isLt
      omega

/-- In the vector form, update e reads its start on the one operand axis from the table's entry (e, 0). -/
theorem vec_start (e : Fin 1600000) (idx : IVec ⟨2, ![1600000, 1]⟩ 32) (a : Fin 1) :
    vecDims.start (ix1 e) idx a = (idx (ix2 e (0 : Fin 1))).toInt := by
  obtain rfl : a = 0 := Subsingleton.elim _ _
  unfold ScatterDims.start
  rw [dif_pos (show (0 : Fin 1) ∈ vecDims.scatterDimsToOperandDims from List.mem_singleton.mpr rfl)]
  have hsi : vecDims.siIdx (ix1 e) ⟨List.idxOf (0 : Fin 1) vecDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the vector form the one operand axis is inserted: the window coordinate is 0. -/
theorem vec_window (e : Fin 1600000) (a : Fin 1) : vecDims.window (ix1 e) a = 0 := by
  obtain rfl : a = 0 := Subsingleton.elim _ _
  rfl

/-- In the column form, update (e, z) reads its start on the node axis from the table's entry (e, 0). -/
theorem col_start0 (e : Fin 1600000) (z : Fin 1) (idx : IVec ⟨2, ![1600000, 1]⟩ 32) :
    colDims.start (ix2 e z) idx (0 : Fin 2) = (idx (ix2 e (0 : Fin 1))).toInt := by
  unfold ScatterDims.start
  rw [dif_pos (show (0 : Fin 2) ∈ colDims.scatterDimsToOperandDims from List.mem_singleton.mpr rfl)]
  have hsi : colDims.siIdx (ix2 e z) ⟨List.idxOf (0 : Fin 2) colDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the column form the unit axis is named by no index component: its start is 0. -/
theorem col_start1 (e : Fin 1600000) (z : Fin 1) (idx : IVec ⟨2, ![1600000, 1]⟩ 32) :
    colDims.start (ix2 e z) idx (1 : Fin 2) = 0 := by
  unfold ScatterDims.start
  rw [dif_neg (show (1 : Fin 2) ∉ colDims.scatterDimsToOperandDims by decide)]

/-- In the column form the node axis is inserted: the window coordinate is 0. -/
theorem col_window0 (e : Fin 1600000) (z : Fin 1) : colDims.window (ix2 e z) (0 : Fin 2) = 0 := rfl

/-- In the column form the unit axis carries the update's second coordinate. -/
theorem col_window1 (e : Fin 1600000) (z : Fin 1) : colDims.window (ix2 e z) (1 : Fin 2) = z.val := rfl

/-- In the vector form, update e lands at node n exactly when the table's entry (e, 0) is n. -/
theorem vec_lands_iff (e : Fin 1600000) (idx : IVec ⟨2, ![1600000, 1]⟩ 32) (n : Fin 100000) :
    vecDims.resultIdx? (ix1 e) idx = some (ix1 n) ↔ (idx (ix2 e (0 : Fin 1))).toInt = (n.val : Int) := by
  rw [resultIdx?_eq_some_iff]
  constructor
  · intro H
    have := H (0 : Fin 1)
    rw [vec_start, vec_window] at this
    simpa using this
  · intro H a
    obtain rfl : a = 0 := Subsingleton.elim _ _
    rw [vec_start, vec_window, H]
    simp

/-- In the column form, update (e, z) lands at (n, z') exactly when the table's entry (e, 0) is n. -/
theorem col_lands_iff (e : Fin 1600000) (z : Fin 1) (idx : IVec ⟨2, ![1600000, 1]⟩ 32) (n : Fin 100000) (z' : Fin 1) :
    colDims.resultIdx? (ix2 e z) idx = some (ix2 n z') ↔ (idx (ix2 e (0 : Fin 1))).toInt = (n.val : Int) := by
  rw [resultIdx?_eq_some_iff]
  constructor
  · intro H
    have := H (0 : Fin 2)
    rw [col_start0, col_window0] at this
    simpa using this
  · intro H a
    match a with
    | ⟨0, _⟩ =>
      show colDims.start (ix2 e z) idx (0 : Fin 2) + (colDims.window (ix2 e z) (0 : Fin 2) : Int) = (n.val : Int)
      rw [col_start0, col_window0, H]
      simp
    | ⟨1, _⟩ =>
      show colDims.start (ix2 e z) idx (1 : Fin 2) + (colDims.window (ix2 e z) (1 : Fin 2) : Int) = (z'.val : Int)
      rw [col_start1, col_window1, Fin.val_eq_zero z, Fin.val_eq_zero z']
      simp

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a vector's index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE TWO COUNTS AGREE: with the two operands equal entry by entry and the two update arrays equal entry by entry,
    the column form's result at (n, 0) is the vector form's result at n. -/
theorem scatterAdd_col_eq_vec
    (dV : ScatterDims ⟨1, ![100000]⟩ ⟨2, ![1600000, 1]⟩ ⟨1, ![1600000]⟩) (hV : dV = vecDims)
    (dC : ScatterDims ⟨2, ![100000, 1]⟩ ⟨2, ![1600000, 1]⟩ ⟨2, ![1600000, 1]⟩) (hC : dC = colDims)
    (idx : IVec ⟨2, ![1600000, 1]⟩ 32)
    (xV : (⟨1, ![100000]⟩ : Shape).Idx → EReal) (xC : (⟨2, ![100000, 1]⟩ : Shape).Idx → EReal)
    (uV : (⟨1, ![1600000]⟩ : Shape).Idx → EReal) (uC : (⟨2, ![1600000, 1]⟩ : Shape).Idx → EReal)
    (hx : ∀ (n : Fin 100000) (z : Fin 1), xC (ix2 n z) = xV (ix1 n))
    (hu : ∀ (e : Fin 1600000) (z : Fin 1), uC (ix2 e z) = uV (ix1 e))
    (n : Fin 100000) (z : Fin 1) :
    Host.scatterAdd (F := Ideal) (φ := .f32) dC xC idx uC (ix2 n z)
      = Host.scatterAdd (F := Ideal) (φ := .f32) dV xV idx uV (ix1 n) := by
  subst hV hC
  show xC (ix2 n z) + ∑ j ∈ Finset.univ.filter (fun j => colDims.resultIdx? j idx = some (ix2 n z)), uC j
    = xV (ix1 n) + ∑ j ∈ Finset.univ.filter (fun j => vecDims.resultIdx? j idx = some (ix1 n)), uV j
  rw [hx, Finset.sum_filter, Finset.sum_filter, sum_idx2, sum_idx1]
  refine congrArg (xV (ix1 n) + ·) ?_
  refine Finset.sum_congr rfl fun e _ => ?_
  rw [Fintype.sum_unique]
  show (if colDims.resultIdx? (ix2 e (default : Fin 1)) idx = some (ix2 n z) then uC (ix2 e (default : Fin 1)) else 0)
    = (if vecDims.resultIdx? (ix1 e) idx = some (ix1 n) then uV (ix1 e) else 0)
  rw [hu]
  by_cases H : (idx (ix2 e (0 : Fin 1))).toInt = (n.val : Int)
  · rw [if_pos ((col_lands_iff e _ idx n z).2 H), if_pos ((vec_lands_iff e idx n).2 H)]
  · rw [if_neg (fun h => H ((col_lands_iff e _ idx n z).1 h)), if_neg (fun h => H ((vec_lands_iff e idx n).1 h))]

end Cert.Lib.ScatterCount

end
-- ==== Proof.LayerPad.lean ====
/-
  Padding an edge list with zero-weight edges does not change a scatter-sum.

  A graph-convolution layer gathers the source row of every edge, scales it by the edge's weight and adds it onto
  the edge's target row.  One program does so over the E true edges, the other over E' ≥ E edges of which the
  last E' - E carry the weight 0.  Over the extended reals x * 0 = 0 for every x (the infinities included) and
  a + 0 = a, so a padded edge adds nothing wherever it lands, and the two sums agree row by row.
-/
import Idealize.ShloMosaic.Lib.ValueIdx
import Idealize.ShloMosaic.Lib.IdealHost
import Idealize.ShloMosaic.Lib.Pipeline.Value
import Idealize.ShloMosaic.PureOps.Ideal
import proofs.«176352_j70050916598092_1_alg».proof.KernelIdeal
import proofs.«176352_j70050916598092_1_alg».proof.ReferenceIdeal
import proofs.«176352_j70050916598092_1_alg».proof.Proof.Spec
import proofs.«176352_j70050916598092_1_alg».proof.Proof.LibScatterCount

noncomputable section

open scoped BigOperators

namespace Cert.Layer

open Idealize.ShloMosaic Idealize.ShloMosaic.ValueIdx

/-! ## A sum over a longer range whose tail vanishes -/

/-- A sum over Fin E' of a function that vanishes from E on is the sum over Fin E. -/
theorem sum_castLE {M : Type*} [AddCommMonoid M] {E E' : Nat} (hE : E ≤ E') (g : Fin E' → M)
    (h0 : ∀ e' : Fin E', E ≤ e'.val → g e' = 0) :
    ∑ e' : Fin E', g e' = ∑ e : Fin E, g (Fin.castLE hE e) := by
  rw [← Finset.sum_image (s := Finset.univ) (g := Fin.castLE hE) (f := g)
    (fun a _ b _ h => Fin.castLE_injective hE h)]
  refine (Finset.sum_subset (Finset.subset_univ _) fun e' _ hn => ?_).symm
  refine h0 e' ?_
  by_contra hlt
  exact hn (Finset.mem_image.2 ⟨⟨e'.val, by omega⟩, Finset.mem_univ _, Fin.ext rfl⟩)

/-! ## The row scatter: update (e, f) lands on row idx(e, 0), column f -/

section Scatter

variable {N C E : Nat}

/-- The dimension numbers of a scatter of E rows of C entries onto the rows of an N x C array, the target row of
    update row e read from entry (e, 0) of an E x 1 table. -/
abbrev sd (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

variable (wf : ScatterDims.WF ⟨2, ![N, C]⟩ ⟨2, ![E, 1]⟩ ⟨2, ![E, C]⟩ [1] [0] [0] 1)

theorem sd_start0 (e : Fin E) (f : Fin C) (idx : IVec ⟨2, ![E, 1]⟩ 32) :
    (sd wf).start (ix2 e f) idx (0 : Fin 2) = (idx (ix2 e (0 : Fin 1))).toInt := by
  unfold ScatterDims.start
  rw [dif_pos (show (0 : Fin 2) ∈ (sd wf).scatterDimsToOperandDims from List.mem_singleton.mpr rfl)]
  have hsi : (sd wf).siIdx (ix2 e f) ⟨List.idxOf (0 : Fin 2) (sd wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem sd_start1 (e : Fin E) (f : Fin C) (idx : IVec ⟨2, ![E, 1]⟩ 32) :
    (sd wf).start (ix2 e f) idx (1 : Fin 2) = 0 := by
  unfold ScatterDims.start
  rw [dif_neg (show (1 : Fin 2) ∉ ([0] : List (Fin 2)) by decide)]

theorem sd_window0 (e : Fin E) (f : Fin C) : (sd wf).window (ix2 e f) (0 : Fin 2) = 0 := rfl

theorem sd_window1 (e : Fin E) (f : Fin C) : (sd wf).window (ix2 e f) (1 : Fin 2) = f.val := rfl

/-- Update (e, f') lands at i exactly when the table's entry (e, 0), read signed, is i's row and f' is i's column. -/
theorem sd_lands_iff (e : Fin E) (f' : Fin C) (idx : IVec ⟨2, ![E, 1]⟩ 32) (i : (⟨2, ![N, C]⟩ : Shape).Idx) :
    (sd wf).resultIdx? (ix2 e f') idx = some i
      ↔ (idx (ix2 e (0 : Fin 1))).toInt = ((i (0 : Fin 2)).val : Int) ∧ (f'.val : Int) = ((i (1 : Fin 2)).val : Int) := by
  rw [Cert.Lib.ScatterCount.resultIdx?_eq_some_iff]
  constructor
  · intro H
    have h0 := H (0 : Fin 2)
    have h1 := H (1 : Fin 2)
    rw [sd_start0, sd_window0] at h0
    rw [sd_start1, sd_window1] at h1
    refine ⟨?_, ?_⟩
    · simpa using h0
    · simpa using h1
  · rintro ⟨H0, H1⟩ a
    match a with
    | ⟨0, _⟩ =>
      show (sd wf).start (ix2 e f') idx (0 : Fin 2) + ((sd wf).window (ix2 e f') (0 : Fin 2) : Int) = ((i (0 : Fin 2)).val : Int)
      rw [sd_start0, sd_window0, H0]
      simp
    | ⟨1, _⟩ =>
      show (sd wf).start (ix2 e f') idx (1 : Fin 2) + ((sd wf).window (ix2 e f') (1 : Fin 2) : Int) = ((i (1 : Fin 2)).val : Int)
      rw [sd_start1, sd_window1, H1]
      simp

end Scatter

/-! ## The scatter-sum over a padded update list -/

/-- THE CORE.  Two row scatters onto equal operands, one of E update rows and one of E' ≥ E: if the first E target rows
    and update rows agree and the update rows from E on are zero, the two results agree. -/
theorem scatterAdd_pad {N C E E' : Nat} (hE : E ≤ E')
    (wfK : ScatterDims.WF ⟨2, ![N, C]⟩ ⟨2, ![E', 1]⟩ ⟨2, ![E', C]⟩ [1] [0] [0] 1)
    (wfR : ScatterDims.WF ⟨2, ![N, C]⟩ ⟨2, ![E, 1]⟩ ⟨2, ![E, C]⟩ [1] [0] [0] 1)
    (xK xR : (⟨2, ![N, C]⟩ : Shape).Idx → EReal)
    (idxK : IVec ⟨2, ![E', 1]⟩ 32) (idxR : IVec ⟨2, ![E, 1]⟩ 32)
    (uK : (⟨2, ![E', C]⟩ : Shape).Idx → EReal) (uR : (⟨2, ![E, C]⟩ : Shape).Idx → EReal)
    (hx : ∀ i, xK i = xR i)
    (hidx : ∀ e : Fin E, idxK (ix2 (Fin.castLE hE e) (0 : Fin 1)) = idxR (ix2 e (0 : Fin 1)))
    (hu : ∀ (e : Fin E) (f : Fin C), uK (ix2 (Fin.castLE hE e) f) = uR (ix2 e f))
    (hu0 : ∀ (e : Fin E') (f : Fin C), E ≤ e.val → uK (ix2 e f) = 0) :
    Host.scatterAdd (F := Ideal) (φ := .f32) (sd wfK) xK idxK uK
      = Host.scatterAdd (F := Ideal) (φ := .f32) (sd wfR) xR idxR uR := by
  funext i
  show xK i + ∑ j ∈ Finset.univ.filter (fun j => (sd wfK).resultIdx? j idxK = some i), uK j
    = xR i + ∑ j ∈ Finset.univ.filter (fun j => (sd wfR).resultIdx? j idxR = some i), uR j
  rw [hx, Finset.sum_filter, Finset.sum_filter, sum_idx2, sum_idx2]
  refine congrArg (xR i + ·) ?_
  rw [sum_castLE hE]
  · refine Finset.sum_congr rfl fun e _ => Finset.sum_congr rfl fun f' _ => ?_
    rw [hu]
    by_cases H : (idxR (ix2 e (0 : Fin 1))).toInt = ((i (0 : Fin 2)).val : Int) ∧ (f'.val : Int) = ((i (1 : Fin 2)).val : Int)
    · rw [if_pos ((sd_lands_iff wfK _ f' idxK i).2 (by rw [hidx]; exact H)), if_pos ((sd_lands_iff wfR e f' idxR i).2 H)]
    · rw [if_neg (fun h => H (by have := (sd_lands_iff wfK _ f' idxK i).1 h; rwa [hidx] at this)),
        if_neg (fun h => H ((sd_lands_iff wfR e f' idxR i).1 h))]
  · intro e' he'
    refine Finset.sum_eq_zero fun f' _ => ?_
    rw [hu0 e' f' he', ite_self]

/-! ## The row gather: result (e, f) reads row idx(e, 0) (clamped), column f -/

section Gather

variable {N C E : Nat}

/-- The dimension numbers of a gather of E rows of an N x C array, the row of result row e read from entry (e, 0)
    of an E x 1 table. -/
abbrev gd (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

variable (wf : GatherDims.WF ⟨2, ![N, C]⟩ ⟨2, ![E, 1]⟩ ⟨2, ![E, C]⟩ [1] [0] [] [0] [] 1 ![1, C])

/-- The row read: the table's entry (e, 0), read signed, clamped into the rows. -/
theorem gd_operandIdx0 (e : Fin E) (f : Fin C) (idx : IVec ⟨2, ![E, 1]⟩ 32) :
    ((gd wf).operandIdx (ix2 e f) idx (0 : Fin 2)).val = min (idx (ix2 e (0 : Fin 1))).toInt.toNat (N - 1) := by
  show (gd wf).start (ix2 e f) idx (0 : Fin 2) + (gd wf).batchCoord (ix2 e f) (0 : Fin 2)
    + (gd wf).offCoord (ix2 e f) (0 : Fin 2) = _
  rw [(gd wf).batchCoord_eq_zero _ _ (List.not_mem_nil),
    (gd wf).offCoord_eq_zero _ _ (fun hm => (((gd wf).mem_sKept _).1 hm).1 (List.mem_singleton.mpr rfl))]
  unfold GatherDims.start
  rw [dif_pos (show (0 : Fin 2) ∈ (gd wf).startIndexMap from List.mem_singleton.mpr rfl)]
  have hsi : (gd wf).siIdx (ix2 e f) ⟨List.idxOf (0 : Fin 2) (gd wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The column read: the result's own column. -/
theorem gd_operandIdx1 (e : Fin E) (f : Fin C) (idx : IVec ⟨2, ![E, 1]⟩ 32) :
    ((gd wf).operandIdx (ix2 e f) idx (1 : Fin 2)).val = f.val := by
  show (gd wf).start (ix2 e f) idx (1 : Fin 2) + (gd wf).batchCoord (ix2 e f) (1 : Fin 2)
    + (gd wf).offCoord (ix2 e f) (1 : Fin 2) = _
  rw [(gd wf).batchCoord_eq_zero _ _ (List.not_mem_nil)]
  have hs : (gd wf).start (ix2 e f) idx (1 : Fin 2) = 0 := by
    unfold GatherDims.start
    rw [dif_neg (show (1 : Fin 2) ∉ ([0] : List (Fin 2)) by decide)]
  have ho : (gd wf).offCoord (ix2 e f) (1 : Fin 2) = f.val := rfl
  rw [hs, ho]
  omega

end Gather

/-- Two row gathers of one array, through tables that agree at the entries (e, 0) and (e', 0), read the same value
    at (e, f) and (e', f). -/
theorem gather_congr {N C E E' : Nat}
    (wf : GatherDims.WF ⟨2, ![N, C]⟩ ⟨2, ![E, 1]⟩ ⟨2, ![E, C]⟩ [1] [0] [] [0] [] 1 ![1, C])
    (wf' : GatherDims.WF ⟨2, ![N, C]⟩ ⟨2, ![E', 1]⟩ ⟨2, ![E', C]⟩ [1] [0] [] [0] [] 1 ![1, C])
    (x : (⟨2, ![N, C]⟩ : Shape).Idx → EReal) (idx : IVec ⟨2, ![E, 1]⟩ 32) (idx' : IVec ⟨2, ![E', 1]⟩ 32)
    (e : Fin E) (e' : Fin E') (f : Fin C) (h : idx (ix2 e (0 : Fin 1)) = idx' (ix2 e' (0 : Fin 1))) :
    Host.gather (gd wf) x idx (ix2 e f) = Host.gather (gd wf') x idx' (ix2 e' f) := by
  show x ((gd wf).operandIdx (ix2 e f) idx) = x ((gd wf').operandIdx (ix2 e' f) idx')
  refine congrArg x (funext fun a => Fin.ext ?_)
  match a with
  | ⟨0, _⟩ =>
    exact (gd_operandIdx0 wf e f idx).trans (by rw [h]; exact (gd_operandIdx0 wf' e' f idx').symm)
  | ⟨1, _⟩ =>
    exact (gd_operandIdx1 wf e f idx).trans (gd_operandIdx1 wf' e' f idx').symm

/-! ## Broadcasts read at an index -/

/-- A vector broadcast to a one-column array reads the vector's entry. -/
theorem bcast_col_apply {α : Type} {E : Nat} (hb : (⟨1, ![E]⟩ : Shape).BroadcastsInDim ⟨2, ![E, 1]⟩ ![0])
    (x : (⟨1, ![E]⟩ : Shape).Idx → α) (e : Fin E) (z : Fin 1) :
    broadcastInDim ⟨2, ![E, 1]⟩ ![0] hb x (ix2 e z) = x (ix1 e) := by
  refine broadcastInDim_apply _ _ _ _ (ix1 e) fun a => ?_
  match a with
  | ⟨0, _⟩ =>
    show e.val = if E = 1 then 0 else e.val
    split
    · have := e.isLt; omega
    · rfl

/-- A one-column array broadcast along the columns reads the column's entry of that row. -/
theorem bcast_row_apply {α : Type} {E C : Nat} (hb : (⟨2, ![E, 1]⟩ : Shape).BroadcastsInDim ⟨2, ![E, C]⟩ ![0, 1])
    (x : (⟨2, ![E, 1]⟩ : Shape).Idx → α) (e : Fin E) (f : Fin C) :
    broadcastInDim ⟨2, ![E, C]⟩ ![0, 1] hb x (ix2 e f) = x (ix2 e (0 : Fin 1)) := by
  refine broadcastInDim_apply _ _ _ _ (ix2 e (0 : Fin 1)) fun a => ?_
  match a with
  | ⟨0, _⟩ =>
    show e.val = if E = 1 then 0 else e.val
    split
    · have := e.isLt; omega
    · rfl
  | ⟨1, _⟩ => rfl

/-! ## The two layers -/

theorem layer64 [Cert.KernelIdeal.Facts] [Cert.ReferenceIdeal.Facts]
    (h : FVec Ideal Cert.KernelIdeal.S100000x64 .f32)
    (srcw dst : IVec Cert.ReferenceIdeal.S1700000 32) (srcwp dstp : IVec Cert.KernelIdeal.S1703936 32)
    (nrm : FVec Ideal Cert.ReferenceIdeal.S1700000 .f32) (n2d : FVec Ideal Cert.KernelIdeal.S1703936x1 .f32)
    (hsrc : ∀ e : Fin 1700000, srcwp (ix1 (Fin.castLE (by norm_num) e)) = srcw (ix1 e))
    (hdst : ∀ e : Fin 1700000, dstp (ix1 (Fin.castLE (by norm_num) e)) = dst (ix1 e))
    (hn : ∀ e : Fin 1700000, n2d (ix2 (Fin.castLE (by norm_num) e) (0 : Fin 1)) = nrm (ix1 e))
    (hn0 : ∀ e : Fin 1703936, 1700000 ≤ e.val → n2d (ix2 e (0 : Fin 1)) = 0) :
    Host.scatterAdd (F := Ideal) Cert.KernelIdeal.scatter_S100000x64_S1703936x1_S1703936x64_1_0_0_1
        (broadcastInDim Cert.KernelIdeal.S100000x64 ![] Cert.KernelIdeal.Facts₀.bcast_S_S100000x64
          (constant (F := Ideal) Cert.KernelIdeal.S_ .f32 0x00000000#32))
        (broadcastInDim Cert.KernelIdeal.S1703936x1 ![0] Cert.KernelIdeal.Facts₀.bcast_S1703936_S1703936x1_0 dstp)
        (Cert.Spec.scale (Host.gather Cert.KernelIdeal.gather_S100000x64_S1703936x1_S1703936x64_1_0_n_n_0_1_164 h
            (broadcastInDim Cert.KernelIdeal.S1703936x1 ![0] Cert.KernelIdeal.Facts₀.bcast_S1703936_S1703936x1_0 srcwp)) n2d)
      = Host.scatterAdd (F := Ideal) Cert.ReferenceIdeal.scatter_S100000x64_S1700000x1_S1700000x64_1_0_0_1
        (broadcastInDim Cert.ReferenceIdeal.S100000x64 ![] Cert.ReferenceIdeal.Facts₀.bcast_S_S100000x64
          (constant (F := Ideal) Cert.ReferenceIdeal.S_ .f32 0x00000000#32))
        (broadcastInDim Cert.ReferenceIdeal.S1700000x1 ![0] Cert.ReferenceIdeal.Facts₀.bcast_S1700000_S1700000x1_0 dst)
        (mulf (Host.gather Cert.ReferenceIdeal.gather_S100000x64_S1700000x1_S1700000x64_1_0_n_n_0_1_164 h
            (broadcastInDim Cert.ReferenceIdeal.S1700000x1 ![0] Cert.ReferenceIdeal.Facts₀.bcast_S1700000_S1700000x1_0 srcw))
          (broadcastInDim Cert.ReferenceIdeal.S1700000x64 ![0, 1] Cert.ReferenceIdeal.Facts₀.bcast_S1700000x1_S1700000x64_0_1
            (broadcastInDim Cert.ReferenceIdeal.S1700000x1 ![0] Cert.ReferenceIdeal.Facts₀.bcast_S1700000_S1700000x1_0 nrm))) := by
  refine scatterAdd_pad (N := 100000) (C := 64) (E := 1700000) (E' := 1703936) (by norm_num) _ _ _ _ _ _ _ _
    (fun _ => rfl) ?_ ?_ ?_
  · intro e
    rw [bcast_col_apply, bcast_col_apply, hdst]
  · intro e f
    show Host.gather _ h _ (ix2 (Fin.castLE _ e) f) * n2d (ix2 (Fin.castLE _ e) (0 : Fin 1))
      = Host.gather _ h _ (ix2 e f) * _
    rw [bcast_row_apply, bcast_col_apply, hn]
    refine congrArg (· * nrm (ix1 e)) ?_
    refine gather_congr _ _ h _ _ _ e f ?_
    rw [bcast_col_apply, bcast_col_apply, hsrc]
  · intro e f he
    show Host.gather _ h _ (ix2 e f) * n2d (ix2 e (0 : Fin 1)) = 0
    rw [hn0 e he, mul_zero]

theorem layer40 [Cert.KernelIdeal.Facts] [Cert.ReferenceIdeal.Facts]
    (h : FVec Ideal Cert.KernelIdeal.S100000x40 .f32)
    (srcw dst : IVec Cert.ReferenceIdeal.S1700000 32) (srcwp dstp : IVec Cert.KernelIdeal.S1703936 32)
    (nrm : FVec Ideal Cert.ReferenceIdeal.S1700000 .f32) (n2d : FVec Ideal Cert.KernelIdeal.S1703936x1 .f32)
    (hsrc : ∀ e : Fin 1700000, srcwp (ix1 (Fin.castLE (by norm_num) e)) = srcw (ix1 e))
    (hdst : ∀ e : Fin 1700000, dstp (ix1 (Fin.castLE (by norm_num) e)) = dst (ix1 e))
    (hn : ∀ e : Fin 1700000, n2d (ix2 (Fin.castLE (by norm_num) e) (0 : Fin 1)) = nrm (ix1 e))
    (hn0 : ∀ e : Fin 1703936, 1700000 ≤ e.val → n2d (ix2 e (0 : Fin 1)) = 0) :
    Host.scatterAdd (F := Ideal) Cert.KernelIdeal.scatter_S100000x40_S1703936x1_S1703936x40_1_0_0_1
        (broadcastInDim Cert.KernelIdeal.S100000x40 ![] Cert.KernelIdeal.Facts₀.bcast_S_S100000x40
          (constant (F := Ideal) Cert.KernelIdeal.S_ .f32 0x00000000#32))
        (broadcastInDim Cert.KernelIdeal.S1703936x1 ![0] Cert.KernelIdeal.Facts₀.bcast_S1703936_S1703936x1_0 dstp)
        (Cert.Spec.scale (Host.gather Cert.KernelIdeal.gather_S100000x40_S1703936x1_S1703936x40_1_0_n_n_0_1_140 h
            (broadcastInDim Cert.KernelIdeal.S1703936x1 ![0] Cert.KernelIdeal.Facts₀.bcast_S1703936_S1703936x1_0 srcwp)) n2d)
      = Host.scatterAdd (F := Ideal) Cert.ReferenceIdeal.scatter_S100000x40_S1700000x1_S1700000x40_1_0_0_1
        (broadcastInDim Cert.ReferenceIdeal.S100000x40 ![] Cert.ReferenceIdeal.Facts₀.bcast_S_S100000x40
          (constant (F := Ideal) Cert.ReferenceIdeal.S_ .f32 0x00000000#32))
        (broadcastInDim Cert.ReferenceIdeal.S1700000x1 ![0] Cert.ReferenceIdeal.Facts₀.bcast_S1700000_S1700000x1_0 dst)
        (mulf (Host.gather Cert.ReferenceIdeal.gather_S100000x40_S1700000x1_S1700000x40_1_0_n_n_0_1_140 h
            (broadcastInDim Cert.ReferenceIdeal.S1700000x1 ![0] Cert.ReferenceIdeal.Facts₀.bcast_S1700000_S1700000x1_0 srcw))
          (broadcastInDim Cert.ReferenceIdeal.S1700000x40 ![0, 1] Cert.ReferenceIdeal.Facts₀.bcast_S1700000x1_S1700000x40_0_1
            (broadcastInDim Cert.ReferenceIdeal.S1700000x1 ![0] Cert.ReferenceIdeal.Facts₀.bcast_S1700000_S1700000x1_0 nrm))) := by
  refine scatterAdd_pad (N := 100000) (C := 40) (E := 1700000) (E' := 1703936) (by norm_num) _ _ _ _ _ _ _ _
    (fun _ => rfl) ?_ ?_ ?_
  · intro e
    rw [bcast_col_apply, bcast_col_apply, hdst]
  · intro e f
    show Host.gather _ h _ (ix2 (Fin.castLE _ e) f) * n2d (ix2 (Fin.castLE _ e) (0 : Fin 1))
      = Host.gather _ h _ (ix2 e f) * _
    rw [bcast_row_apply, bcast_col_apply, hn]
    refine congrArg (· * nrm (ix1 e)) ?_
    refine gather_congr _ _ h _ _ _ e f ?_
    rw [bcast_col_apply, bcast_col_apply, hsrc]
  · intro e f he
    show Host.gather _ h _ (ix2 e f) * n2d (ix2 e (0 : Fin 1)) = 0
    rw [hn0 e he, mul_zero]

end Cert.Layer

end
-- ==== Proof.Bridge.lean ====
/-
  The two programs compute the same array.

  The kernel program's value is: dense product, aggregation over the padded edge list, bias and clamp, dense product,
  aggregation over the padded edge list, bias.  The reference does the same over the unpadded edge list, building its
  edge arrays once per layer.  Stage by stage: the dense products are the same sums; the edge arrays agree on the true
  edges and the padded edges carry the weight zero, so the two aggregations agree; the bias rows are the same rows.
-/
import proofs.«176352_j70050916598092_1_alg».proof.Proof.EdgeIdent
import proofs.«176352_j70050916598092_1_alg».proof.Proof.EdgePad
import proofs.«176352_j70050916598092_1_alg».proof.Proof.DenseBias
import proofs.«176352_j70050916598092_1_alg».proof.Proof.LayerPad

set_option maxRecDepth 16384

noncomputable section

namespace Cert.Bridge

open Idealize.ShloMosaic Idealize.ShloMosaic.ValueIdx

/-- The first layer's aggregation: over the padded edge list it is the reference's scatter-sum. -/
theorem agg64_eq (x : FVec Ideal Cert.KernelIdeal.S100000x128 .f32) (ei : IVec Cert.KernelIdeal.S2x1600000 32)
    (w1 : FVec Ideal Cert.KernelIdeal.S128x64 .f32) :
    Cert.KernelIdeal.Val.agg64 (Cert.ReferenceIdeal.ReadP.val_main_v7 (F := Ideal) x w1) ei
      = Cert.ReferenceIdeal.ReadP.val_main_v43 (F := Ideal) x ei w1 := by
  unfold Cert.KernelIdeal.Val.agg64
  exact Cert.Layer.layer64 (Cert.ReferenceIdeal.ReadP.val_main_v7 (F := Ideal) x w1)
    (Cert.ReferenceIdeal.ReadP.val_main_v35 (F := Ideal) ei) (Cert.ReferenceIdeal.ReadP.val_main_v6 (F := Ideal) ei)
    (Cert.KernelIdeal.Val.wrapP (Cert.KernelIdeal.Val.srcp ei)) (Cert.KernelIdeal.Val.dstp ei)
    (Cert.ReferenceIdeal.ReadP.val_main_v30 (F := Ideal) ei) (Cert.KernelIdeal.Val.n2d ei)
    (fun e => (srcw_low ei e).trans (congrFun (wsrc_eq1 ei) _))
    (fun e => (dst_low ei e).trans (congrFun (dst_eq ei) _))
    (fun e => (n2d_low ei e).trans (congrFun (nrm_eq1 ei) _))
    (fun e he => n2d_high ei e he)

/-- The second layer's aggregation, likewise. -/
theorem agg40_eq (x : FVec Ideal Cert.KernelIdeal.S100000x128 .f32) (ei : IVec Cert.KernelIdeal.S2x1600000 32)
    (w1 : FVec Ideal Cert.KernelIdeal.S128x64 .f32) (b1 : FVec Ideal Cert.KernelIdeal.S64 .f32)
    (w2 : FVec Ideal Cert.KernelIdeal.S64x40 .f32) :
    Cert.KernelIdeal.Val.agg40 (Cert.ReferenceIdeal.ReadP.val_main_v48 (F := Ideal) x ei w1 b1 w2) ei
      = Cert.ReferenceIdeal.ReadP.val_main_v84 (F := Ideal) x ei w1 b1 w2 := by
  unfold Cert.KernelIdeal.Val.agg40
  exact Cert.Layer.layer40 (Cert.ReferenceIdeal.ReadP.val_main_v48 (F := Ideal) x ei w1 b1 w2)
    (Cert.ReferenceIdeal.ReadP.val_main_v76 (F := Ideal) ei) (Cert.ReferenceIdeal.ReadP.val_main_v6 (F := Ideal) ei)
    (Cert.KernelIdeal.Val.wrapP (Cert.KernelIdeal.Val.srcp ei)) (Cert.KernelIdeal.Val.dstp ei)
    (Cert.ReferenceIdeal.ReadP.val_main_v71 (F := Ideal) ei) (Cert.KernelIdeal.Val.n2d ei)
    (fun e => (srcw_low ei e).trans (congrFun (wsrc_eq2 ei) _))
    (fun e => (dst_low ei e).trans (congrFun (dst_eq ei) _))
    (fun e => (n2d_low ei e).trans (congrFun (nrm_eq2 ei) _))
    (fun e he => n2d_high ei e he)

/-- THE TWO VALUES AGREE. -/
theorem out_eq (x : FVec Ideal Cert.KernelIdeal.S100000x128 .f32) (ei : IVec Cert.KernelIdeal.S2x1600000 32)
    (w1 : FVec Ideal Cert.KernelIdeal.S128x64 .f32) (b1 : FVec Ideal Cert.KernelIdeal.S64 .f32)
    (w2 : FVec Ideal Cert.KernelIdeal.S64x40 .f32) (b2 : FVec Ideal Cert.KernelIdeal.S40 .f32) :
    Cert.KernelIdeal.Val.out x ei w1 b1 w2 b2 = Cert.ReferenceIdeal.ReadP.val_main_v87 (F := Ideal) x ei w1 b1 w2 b2 := by
  have e7 : Cert.Spec.mm (R := 100000) (K := 128) (N := 64) x w1
      = Cert.ReferenceIdeal.ReadP.val_main_v7 (F := Ideal) x w1 := (dot128 x w1).symm
  have e47 : Cert.Spec.biasRelu (R := 100000) (C := 64) (Cert.ReferenceIdeal.ReadP.val_main_v43 (F := Ideal) x ei w1)
        (shapeCast _ b1 Cert.KernelIdeal.Facts₀.shapeCasts_S64_S1x64)
      = Cert.ReferenceIdeal.ReadP.val_main_v47 (F := Ideal) x ei w1 b1 := biasRelu_eq _ b1
  have e48 : Cert.Spec.mm (R := 100000) (K := 64) (N := 40) (Cert.ReferenceIdeal.ReadP.val_main_v47 (F := Ideal) x ei w1 b1) w2
      = Cert.ReferenceIdeal.ReadP.val_main_v48 (F := Ideal) x ei w1 b1 w2 := (dot64 _ w2).symm
  have e87 : Cert.Spec.bias (R := 100000) (C := 40) (Cert.ReferenceIdeal.ReadP.val_main_v84 (F := Ideal) x ei w1 b1 w2)
        (shapeCast _ b2 Cert.KernelIdeal.Facts₀.shapeCasts_S40_S1x40)
      = Cert.ReferenceIdeal.ReadP.val_main_v87 (F := Ideal) x ei w1 b1 w2 b2 := bias_eq _ b2
  unfold Cert.KernelIdeal.Val.out
  rw [e7, agg64_eq x ei w1, e47, e48, agg40_eq x ei w1 b1 w2, e87]

end Cert.Bridge

end
-- ==== Proof.RegionMM.lean ====
import proofs.«176352_j70050916598092_1_alg».proof.Proof.Gen.KernelIdeal.Frame
import proofs.«176352_j70050916598092_1_alg».proof.Proof.Spec
import Idealize.ShloMosaic.Lib.Pipeline.Value
import Idealize.ShloMosaic.Lib.ValueIdx
import Idealize.ShloMosaic.PureOps.Ideal.Laws

/-!
The two dense-product regions as whole-array functions.  Each region multiplies a tall array, cut into 50 row blocks of
2000 rows, by a small array taken whole, and writes the 50 row blocks of the product.  For each region: the block
product read at an index is the sum over the contracted axis; the block a grid point reads or writes is the rows
2000·b … 2000·b + 1999 of its array, b the point's row-block index; the row blocks cover the output; so the output
array ends as the dense product of the two input arrays as the region found them.
-/

noncomputable section

namespace Cert.KernelIdeal.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offset of a whole-buffer access, as a constant function. -/
theorem zero_off : (![0, 0] : Fin 2 → Nat) = fun _ => 0 := funext fun a => by fin_cases a <;> rfl

/-! ## The first dense product: [100000,128] by [128,64], in 50 row blocks of 2000 -/

/-- The operand indices of the block product at output index i and contraction index q, coordinate by coordinate. -/
theorem lhs0_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs0_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs0_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs0_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product at an index: the sum over the contracted axis of the products of the two blocks' entries
    (the narrowing of the operands is the identity on the extended reals, the accumulator starts at zero). -/
theorem pay0_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-- The printed index maps, decided over the 50 grid points: the row blocks of the left operand move with the
    output's, the right operand's one block and every column block index stay at zero. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every one of the 50 row blocks is some point's. -/
theorem idx_onto0 : ∀ q0 : Fin 50, ∃ t : Fin cfg0.N, win0_2.index t = ![q0.val, 0] :=
  (by decide +kernel : ∀ q0 : Fin 50, ∃ t : Fin grid0.N, win0_2.index t = ![q0.val, 0])

/-- Entry (p, k) of the left operand's block at point t is entry (2000·b + p, k) of the array, b the output's row block. -/
theorem blk0_x (c : Dev nD) (t : Fin cfg0.N) (p : Fin 2000) (k : Fin 128) (i : S100000x128.Idx)
    (h0 : (i 0).val = win0_2.index t (0 : Fin 2) * 2000 + p.val) (h1 : (i 1).val = k.val) :
    (iblk0 V c 0 t : Vec Ideal S2000x128 .f32) (ix2 p k) = (V c (Pipeline.arrRef spec0 0) : S100000x128.Idx → EReal) i := by
  obtain ⟨e0, e1, -⟩ := idx0 t
  unfold iblk0
  rw [View.read_apply]
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 2000 + 1 * p.val = (i 0).val; omega
  | ⟨1, _⟩ => show win0_0.index t (1 : Fin 2) * 128 + 1 * k.val = (i 1).val; omega

/-- The right operand's one block is the whole array. -/
theorem blk0_w (c : Dev nD) (t : Fin cfg0.N) (k : Fin 128) (q : Fin 64) :
    (iblk0 V c 1 t : Vec Ideal S128x64 .f32) (ix2 k q) = (V c (Pipeline.arrRef spec0 1) : S128x64.Idx → EReal) (ix2 k q) := by
  obtain ⟨-, -, e2, e3, -⟩ := idx0 t
  unfold iblk0
  rw [View.read_apply]
  show (V c (Pipeline.arrRef spec0 1) : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- What point t writes back is block t of the dense product of the two arrays as the region found them. -/
theorem flushed0_eq (c : Dev nD) (t : Fin cfg0.N) :
    (dat0 (F := Ideal) V c).flushed 2 t = ((cfg0.win 2).blk t).view.read (Elt Ideal)
      (Cert.Spec.mm (R := 100000) (K := 128) (N := 64) (V c (Pipeline.arrRef spec0 0)) (V c (Pipeline.arrRef spec0 1))) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x64) zero_off]
  show (k0_pay1 (F := Ideal) (iblk0 V c 0 t) (iblk0 V c 1 t) : S2000x64.Idx → EReal) = fun j : S2000x64.Idx =>
    Cert.Spec.mm (R := 100000) (K := 128) (N := 64) (V c (Pipeline.arrRef spec0 0)) (V c (Pipeline.arrRef spec0 1)) (((cfg0.win 2).blk t).view.emb j)
  funext j
  obtain ⟨p, q, rfl⟩ : ∃ (p : Fin 2000) (q : Fin 64), j = ix2 p q := ⟨j 0, j 1, eq_ix2 j⟩
  refine (pay0_apply (iblk0 V c 0 t) (iblk0 V c 1 t) p q).trans ?_
  unfold Cert.Spec.mm
  refine Finset.sum_congr rfl fun k _ => ?_
  rw [blk0_x V c t p k (ix2 ((((cfg0.win 2).blk t).view.emb (ix2 p q)) 0) k) (by show win0_2.index t (0 : Fin 2) * 2000 + 1 * p.val = _; omega) rfl, blk0_w V c t k q]
  obtain ⟨-, -, -, -, -, e5⟩ := idx0 t
  refine congrArg _ (congrArg _ (funext fun a => Fin.ext ?_))
  match a with
  | ⟨0, _⟩ => rfl
  | ⟨1, _⟩ => show q.val = win0_2.index t (1 : Fin 2) * 64 + 1 * q.val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v34).slice (win0_2.rect t)).set ↔ _
  rw [View.set_slice_whole, Rect.mem_set_unit]
  exact Iff.rfl

/-- The 50 row blocks cover the output array: row r is in block r / 2000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After region 0 its output array is the dense product of its two input arrays as the region found them. -/
theorem final0 (c : Dev nD) : (dat0 (F := Ideal) V c).arrAt 2 cfg0.N
    = Cert.Spec.mm (R := 100000) (K := 128) (N := 64) (V c (Pipeline.arrRef spec0 0)) (V c (Pipeline.arrRef spec0 1)) :=
  (dat0 V c).arrAt_eq_of_cover 2 _ (fun t _ => flushed0_eq V c t) cover0

/-! ## The second dense product: [100000,64] by [64,40], in 50 row blocks of 2000 -/

/-- The operand indices of the block product at output index i and contraction index q, coordinate by coordinate. -/
theorem lhs3_0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
theorem lhs3_1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q
theorem rhs3_0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q
theorem rhs3_1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- The block product at an index: the sum over the contracted axis of the products of the two blocks' entries
    (the reshaping to the same shape and the narrowing of the operands are the identity on the extended reals, the
    accumulator starts at zero). -/
theorem pay3_apply (x0 : Vec Ideal S2000x64 .f32) (x1 : Vec Ideal S64x40 .f32) (p : Fin 2000) (q : Fin 40) :
    k3_pay1 (F := Ideal) x0 x1 (ix2 p q) = ∑ k : Fin 64, x0 (ix2 p k) * x1 (ix2 k q) := by
  unfold k3_pay1
  refine (Ideal.matmul_constant_zero_apply dot_S2000x64_S64x40_S2000x40_1_0_0_1_n_n none _ _ (ix2 p q)).trans ?_
  rw [← Equiv.sum_comp (contrEquiv1 dot_S2000x64_S64x40_S2000x40_1_0_0_1_n_n 64 rfl rfl).symm]
  refine Finset.sum_congr rfl fun k _ => ?_
  have hk := contrEquiv1_symm_val dot_S2000x64_S64x40_S2000x40_1_0_0_1_n_n 64 rfl rfl k
  have el : dot_S2000x64_S64x40_S2000x40_1_0_0_1_n_n.lhsIdx (ix2 p q) ((contrEquiv1 dot_S2000x64_S64x40_S2000x40_1_0_0_1_n_n 64 rfl rfl).symm k) = ix2 p k := funext fun a => Fin.ext (by
    match a with
    | ⟨0, _⟩ => exact lhs3_0 _ _
    | ⟨1, _⟩ => exact (lhs3_1 _ _).trans hk)
  have er : dot_S2000x64_S64x40_S2000x40_1_0_0_1_n_n.rhsIdx (ix2 p q) ((contrEquiv1 dot_S2000x64_S64x40_S2000x40_1_0_0_1_n_n 64 rfl rfl).symm k) = ix2 k q := funext fun a => Fin.ext (by
    match a with
    | ⟨0, _⟩ => exact (rhs3_0 _ _).trans hk
    | ⟨1, _⟩ => exact rhs3_1 _ _)
  rw [el, er, truncf_apply, truncf_apply, shapeCast_self]

/-- The printed index maps, decided over the 50 grid points: the row blocks of the left operand move with the
    output's, the right operand's one block and every column block index stay at zero. -/
theorem idx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 49
    ∧ win3_2.index t (1 : Fin 2) = 0 :=
  (by decide +kernel : ∀ t : Fin grid3.N, _)

/-- Every one of the 50 row blocks is some point's. -/
theorem idx_onto3 : ∀ q0 : Fin 50, ∃ t : Fin cfg3.N, win3_2.index t = ![q0.val, 0] :=
  (by decide +kernel : ∀ q0 : Fin 50, ∃ t : Fin grid3.N, win3_2.index t = ![q0.val, 0])

/-- Entry (p, k) of the left operand's block at point t is entry (2000·b + p, k) of the array, b the output's row block. -/
theorem blk3_x (c : Dev nD) (t : Fin cfg3.N) (p : Fin 2000) (k : Fin 64) (i : S100000x64.Idx)
    (h0 : (i 0).val = win3_2.index t (0 : Fin 2) * 2000 + p.val) (h1 : (i 1).val = k.val) :
    (iblk3 V c 0 t : Vec Ideal S2000x64 .f32) (ix2 p k) = (V c (Pipeline.arrRef spec3 0) : S100000x64.Idx → EReal) i := by
  obtain ⟨e0, e1, -⟩ := idx3 t
  unfold iblk3
  rw [View.read_apply]
  show (V c (Pipeline.arrRef spec3 0) : S100000x64.Idx → EReal) (((cfg3.win 0).blk t).view.emb (ix2 p k)) = _
  refine congrArg _ (funext fun a => Fin.ext ?_)
  match a with
  | ⟨0, _⟩ => show win3_0.index t (0 : Fin 2) * 2000 + 1 * p.val = (i 0).val; omega
  | ⟨1, _⟩ => show win3_0.index t (1 : Fin 2) * 64 + 1 * k.val = (i 1).val; omega

/-- The right operand's one block is the whole array. -/
theorem blk3_w (c : Dev nD) (t : Fin cfg3.N) (k : Fin 64) (q : Fin 40) :
    (iblk3 V c 1 t : Vec Ideal S64x40 .f32) (ix2 k q) = (V c (Pipeline.arrRef spec3 1) : S64x40.Idx → EReal) (ix2 k q) := by
  obtain ⟨-, -, e2, e3, -⟩ := idx3 t
  unfold iblk3
  rw [View.read_apply]
  show (V c (Pipeline.arrRef spec3 1) : S64x40.Idx → EReal) (((cfg3.win 1).blk t).view.emb (ix2 k q)) = _
  refine congrArg _ (funext fun a => Fin.ext ?_)
  match a with
  | ⟨0, _⟩ => show win3_1.index t (0 : Fin 2) * 64 + 1 * k.val = k.val; omega
  | ⟨1, _⟩ => show win3_1.index t (1 : Fin 2) * 40 + 1 * q.val = q.val; omega

/-- What point t writes back is block t of the dense product of the two arrays as the region found them. -/
theorem flushed3_eq (c : Dev nD) (t : Fin cfg3.N) :
    (dat3 (F := Ideal) V c).flushed 2 t = ((cfg3.win 2).blk t).view.read (Elt Ideal)
      (Cert.Spec.mm (R := 100000) (K := 64) (N := 40) (V c (Pipeline.arrRef spec3 0)) (V c (Pipeline.arrRef spec3 1))) := by
  show (cfg3.win 2).cut (grid3.coords t) ((dat3 V c).after 2 t) = _
  rw [after3_2]
  unfold out3_2
  rw [View.canon_unit_zero zero_off]
  simp only [View.ld_unit_zero (S := S2000x64) zero_off, View.ld_unit_zero (S := S64x40) zero_off]
  show (k3_pay1 (F := Ideal) (iblk3 V c 0 t) (iblk3 V c 1 t) : S2000x40.Idx → EReal) = fun j : S2000x40.Idx =>
    Cert.Spec.mm (R := 100000) (K := 64) (N := 40) (V c (Pipeline.arrRef spec3 0)) (V c (Pipeline.arrRef spec3 1)) (((cfg3.win 2).blk t).view.emb j)
  funext j
  obtain ⟨p, q, rfl⟩ : ∃ (p : Fin 2000) (q : Fin 40), j = ix2 p q := ⟨j 0, j 1, eq_ix2 j⟩
  refine (pay3_apply (iblk3 V c 0 t) (iblk3 V c 1 t) p q).trans ?_
  unfold Cert.Spec.mm
  refine Finset.sum_congr rfl fun k _ => ?_
  rw [blk3_x V c t p k (ix2 ((((cfg3.win 2).blk t).view.emb (ix2 p q)) 0) k) (by show win3_2.index t (0 : Fin 2) * 2000 + 1 * p.val = _; omega) rfl, blk3_w V c t k q]
  obtain ⟨-, -, -, -, -, e5⟩ := idx3 t
  refine congrArg _ (congrArg _ (funext fun a => Fin.ext ?_))
  match a with
  | ⟨0, _⟩ => rfl
  | ⟨1, _⟩ => show q.val = win3_2.index t (1 : Fin 2) * 40 + 1 * q.val; omega

/-- An index of the output array is in point t's block iff each coordinate is in the block's range on its axis. -/
theorem mem_blk3 (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v48).slice (win3_2.rect t)).set ↔ _
  rw [View.set_slice_whole, Rect.mem_set_unit]
  exact Iff.rfl

/-- The 50 row blocks cover the output array: row r is in block r / 2000. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- After region 3 its output array is the dense product of its two input arrays as the region found them. -/
theorem final3 (c : Dev nD) : (dat3 (F := Ideal) V c).arrAt 2 cfg3.N
    = Cert.Spec.mm (R := 100000) (K := 64) (N := 40) (V c (Pipeline.arrRef spec3 0)) (V c (Pipeline.arrRef spec3 1)) :=
  (dat3 V c).arrAt_eq_of_cover 2 _ (fun t _ => flushed3_eq V c t) cover3

end Cert.KernelIdeal.Regions

end
-- ==== Proof.RegionScale.lean ====
import proofs.«176352_j70050916598092_1_alg».proof.Proof.Gen.KernelIdeal.Frame
import proofs.«176352_j70050916598092_1_alg».proof.Proof.Spec
import Idealize.ShloMosaic.Lib.Pipeline.Value
import Idealize.ShloMosaic.Lib.ValueIdx
import Idealize.ShloMosaic.Lib.ValueLayout

/-!
Regions 1 and 4 of the kernel scale every gathered row by that row's weight.  Each grid point handles one block
of 4096 rows; the weight column is cut into the same row blocks.  Read index by index, the body's result on a
block is the restriction of the whole-array scaling, and the blocks of the output tile its array, so after the
region the output array IS the whole-array scaling of the two arrays the region reads.
-/

noncomputable section

namespace Cert.KernelIdeal.Regions

open Idealize.ShloMosaic Idealize.ShloMosaic.ValueIdx Idealize.ShloMosaic.TcCoe Idealize.SL.Sem Cert.KernelIdeal Cert.KernelIdeal.Gen
open Idealize.ShloMosaic.Pipeline (Dat)

/-- The origin of a two-axis rectangle, as a constant function. -/
private theorem origin2_eq : (![0, 0] : Fin 2 → Nat) = fun _ => 0 := funext fun a => by fin_cases a <;> rfl

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Region 1: rows scaled by their weights, 64 columns -/

/-- The scaling body at an index: the row's entry times the row's weight. -/
theorem scale64_payload_apply (x0 : Vec Ideal S4096x64 .f32) (x1 : Vec Ideal S4096x1 .f32) (p : Fin 4096) (q : Fin 64) :
    k1_pay1 x0 x1 (ix2 p q) = x0 (ix2 p q) * x1 (ix2 p (0 : Fin 1)) := by
  unfold k1_pay1
  rw [mulf_apply, shapeCast_self, shapeCast_self, broadcastTo_a1_ab_apply]

/-- The body's result at `(p, q)` of a block is the whole-array scaling at the array index `i`, once the two
    blocks hold the arrays' entries that `i` names. -/
theorem scale64_block (A0 : S1703936x64.Idx → EReal) (A1 : S1703936x1.Idx → EReal)
    (x0 : Vec Ideal S4096x64 .f32) (x1 : Vec Ideal S4096x1 .f32) (p : Fin 4096) (q : Fin 64) (i : S1703936x64.Idx)
    (h0 : x0 (ix2 p q) = A0 i) (h1 : x1 (ix2 p (0 : Fin 1)) = A1 (ix2 (i 0 : Fin 1703936) (0 : Fin 1))) :
    k1_pay1 x0 x1 (ix2 p q) = Cert.Spec.scale A0 A1 i := by
  rw [scale64_payload_apply, h0, h1]; rfl

/-- The three windows' block indices at grid point `t`: block row `t`, block column 0. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What grid point `t` writes back is block `t` of the whole-array scaling of the arrays as the region finds them. -/
theorem flushed1_eq (c : Dev nD) (t : Fin cfg1.N) :
    (dat1 (F := Ideal) V c).flushed 2 t = ((cfg1.win 2).blk t).view.read (Elt Ideal)
      (Cert.Spec.scale (V c (Pipeline.arrRef spec1 0)) (V c (Pipeline.arrRef spec1 1))) := by
  show (cfg1.win 2).cut (grid1.coords t) ((dat1 V c).after 2 t) = _
  rw [after1_2]
  unfold out1_2
  rw [View.canon_unit_zero origin2_eq]
  simp only [View.ld_unit_zero (S := S4096x64) origin2_eq, View.ld_unit_zero (S := S4096x1) origin2_eq]
  obtain ⟨e0, e1, e2, e3, e4, e5⟩ := block_index1 t
  funext j
  obtain ⟨p, q, rfl⟩ : ∃ (p : Fin 4096) (q : Fin 64), j = ix2 p q := ⟨j 0, j 1, eq_ix2 j⟩
  refine scale64_block (V c (Pipeline.arrRef spec1 0)) (V c (Pipeline.arrRef spec1 1)) (iblk1 V c 0 t) (iblk1 V c 1 t) p q
    (((cfg1.win 2).blk t).view.emb (ix2 p q)) ?_ ?_
  · show V c (Pipeline.arrRef spec1 0) (((cfg1.win 0).blk t).view.emb (ix2 p q)) = _
    refine congrArg _ (funext fun a => Fin.ext ?_)
    match a with
    | ⟨0, _⟩ => show win1_0.index t (0 : Fin 2) * 4096 + 1 * p.val = win1_2.index t (0 : Fin 2) * 4096 + 1 * p.val; omega
    | ⟨1, _⟩ => show win1_0.index t (1 : Fin 2) * 64 + 1 * q.val = win1_2.index t (1 : Fin 2) * 64 + 1 * q.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 4096 + 1 * p.val = win1_2.index t (0 : Fin 2) * 4096 + 1 * p.val; omega
    | ⟨1, _⟩ => show win1_1.index t (1 : Fin 2) * 1 + 1 * 0 = 0; omega

/-- An index of the array is in point `t`'s block iff each coordinate is in the block's range on its axis. -/
theorem mem_blk1 (t : Fin cfg1.N) (i : S1703936x64.Idx) :
    i ∈ ((cfg1.win 2).blk t).view.set ↔ ∀ a : Fin 2, win1_2.index t a * S4096x64.size a ≤ (i a).val
      ∧ (i a).val < win1_2.index t a * S4096x64.size a + S4096x64.size a := by
  show i ∈ ((View.whole main_v42).slice (win1_2.rect t)).set ↔ _
  rw [View.set_slice_whole, Rect.mem_set_unit]
  exact Iff.rfl

/-- Every index of the array is in some point's block: row `r` is in block `r / 4096`. -/
theorem cover1 (i : S1703936x64.Idx) :
    ∃ t : Fin cfg1.N, (cfg1.win 2).flush t = true ∧ i ∈ ((cfg1.win 2).blk t).view.set := by
  have hi0 : (i 0).val < 1703936 := (i 0).isLt
  have hi1 : (i 1).val < 64 := (i 1).isLt
  have hN : cfg1.N = 416 := N_1
  obtain ⟨t, ht⟩ : ∃ t : Fin cfg1.N, t.val = (i 0).val / 4096 := ⟨⟨(i 0).val / 4096, by omega⟩, rfl⟩
  obtain ⟨e0, e1, e2, e3, e4, e5⟩ := block_index1 t
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 64 ≤ (i 1).val ∧ (i 1).val < win1_2.index t (1 : Fin 2) * 64 + 64; omega

/-- The output array after region 1: the whole-array scaling of the two arrays the region reads. -/
theorem final1 (c : Dev nD) : (dat1 (F := Ideal) V c).arrAt 2 cfg1.N
    = Cert.Spec.scale (V c (Pipeline.arrRef spec1 0)) (V c (Pipeline.arrRef spec1 1)) :=
  (dat1 V c).arrAt_eq_of_cover 2 _ (fun t _ => flushed1_eq V c t) (cover1)

end

/-! ## Region 4: rows scaled by their weights, 40 columns -/

/-- The scaling body at an index: the row's entry times the row's weight. -/
theorem scale40_payload_apply (x0 : Vec Ideal S4096x40 .f32) (x1 : Vec Ideal S4096x1 .f32) (p : Fin 4096) (q : Fin 40) :
    k4_pay1 x0 x1 (ix2 p q) = x0 (ix2 p q) * x1 (ix2 p (0 : Fin 1)) := by
  unfold k4_pay1
  rw [mulf_apply, shapeCast_self, shapeCast_self, broadcastTo_a1_ab_apply]

/-- The body's result at `(p, q)` of a block is the whole-array scaling at the array index `i`, once the two
    blocks hold the arrays' entries that `i` names. -/
theorem scale40_block (A0 : S1703936x40.Idx → EReal) (A1 : S1703936x1.Idx → EReal)
    (x0 : Vec Ideal S4096x40 .f32) (x1 : Vec Ideal S4096x1 .f32) (p : Fin 4096) (q : Fin 40) (i : S1703936x40.Idx)
    (h0 : x0 (ix2 p q) = A0 i) (h1 : x1 (ix2 p (0 : Fin 1)) = A1 (ix2 (i 0 : Fin 1703936) (0 : Fin 1))) :
    k4_pay1 x0 x1 (ix2 p q) = Cert.Spec.scale A0 A1 i := by
  rw [scale40_payload_apply, h0, h1]; rfl

/-- The three windows' block indices at grid point `t`: block row `t`, block column 0. -/
theorem block_index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

/-- What grid point `t` writes back is block `t` of the whole-array scaling of the arrays as the region finds them. -/
theorem flushed4_eq (c : Dev nD) (t : Fin cfg4.N) :
    (dat4 (F := Ideal) V c).flushed 2 t = ((cfg4.win 2).blk t).view.read (Elt Ideal)
      (Cert.Spec.scale (V c (Pipeline.arrRef spec4 0)) (V c (Pipeline.arrRef spec4 1))) := by
  show (cfg4.win 2).cut (grid4.coords t) ((dat4 V c).after 2 t) = _
  rw [after4_2]
  unfold out4_2
  rw [View.canon_unit_zero origin2_eq]
  simp only [View.ld_unit_zero (S := S4096x40) origin2_eq, View.ld_unit_zero (S := S4096x1) origin2_eq]
  obtain ⟨e0, e1, e2, e3, e4, e5⟩ := block_index4 t
  funext j
  obtain ⟨p, q, rfl⟩ : ∃ (p : Fin 4096) (q : Fin 40), j = ix2 p q := ⟨j 0, j 1, eq_ix2 j⟩
  refine scale40_block (V c (Pipeline.arrRef spec4 0)) (V c (Pipeline.arrRef spec4 1)) (iblk4 V c 0 t) (iblk4 V c 1 t) p q
    (((cfg4.win 2).blk t).view.emb (ix2 p q)) ?_ ?_
  · show V c (Pipeline.arrRef spec4 0) (((cfg4.win 0).blk t).view.emb (ix2 p q)) = _
    refine congrArg _ (funext fun a => Fin.ext ?_)
    match a with
    | ⟨0, _⟩ => show win4_0.index t (0 : Fin 2) * 4096 + 1 * p.val = win4_2.index t (0 : Fin 2) * 4096 + 1 * p.val; omega
    | ⟨1, _⟩ => show win4_0.index t (1 : Fin 2) * 40 + 1 * q.val = win4_2.index t (1 : Fin 2) * 40 + 1 * q.val; omega
  · show V c (Pipeline.arrRef spec4 1) (((cfg4.win 1).blk t).view.emb (ix2 p (0 : Fin 1))) = _
    refine congrArg _ (funext fun a => Fin.ext ?_)
    match a with
    | ⟨0, _⟩ => show win4_1.index t (0 : Fin 2) * 4096 + 1 * p.val = win4_2.index t (0 : Fin 2) * 4096 + 1 * p.val; omega
    | ⟨1, _⟩ => show win4_1.index t (1 : Fin 2) * 1 + 1 * 0 = 0; omega

/-- An index of the array is in point `t`'s block iff each coordinate is in the block's range on its axis. -/
theorem mem_blk4 (t : Fin cfg4.N) (i : S1703936x40.Idx) :
    i ∈ ((cfg4.win 2).blk t).view.set ↔ ∀ a : Fin 2, win4_2.index t a * S4096x40.size a ≤ (i a).val
      ∧ (i a).val < win4_2.index t a * S4096x40.size a + S4096x40.size a := by
  show i ∈ ((View.whole main_v56).slice (win4_2.rect t)).set ↔ _
  rw [View.set_slice_whole, Rect.mem_set_unit]
  exact Iff.rfl

/-- Every index of the array is in some point's block: row `r` is in block `r / 4096`. -/
theorem cover4 (i : S1703936x40.Idx) :
    ∃ t : Fin cfg4.N, (cfg4.win 2).flush t = true ∧ i ∈ ((cfg4.win 2).blk t).view.set := by
  have hi0 : (i 0).val < 1703936 := (i 0).isLt
  have hi1 : (i 1).val < 40 := (i 1).isLt
  have hN : cfg4.N = 416 := N_4
  obtain ⟨t, ht⟩ : ∃ t : Fin cfg4.N, t.val = (i 0).val / 4096 := ⟨⟨(i 0).val / 4096, by omega⟩, rfl⟩
  obtain ⟨e0, e1, e2, e3, e4, e5⟩ := block_index4 t
  refine ⟨t, flush4_2 t, ?_⟩
  rw [mem_blk4]
  intro a
  match a with
  | ⟨0, _⟩ => show win4_2.index t (0 : Fin 2) * 4096 ≤ (i 0).val ∧ (i 0).val < win4_2.index t (0 : Fin 2) * 4096 + 4096; omega
  | ⟨1, _⟩ => show win4_2.index t (1 : Fin 2) * 40 ≤ (i 1).val ∧ (i 1).val < win4_2.index t (1 : Fin 2) * 40 + 40; omega

/-- The output array after region 4: the whole-array scaling of the two arrays the region reads. -/
theorem final4 (c : Dev nD) : (dat4 (F := Ideal) V c).arrAt 2 cfg4.N
    = Cert.Spec.scale (V c (Pipeline.arrRef spec4 0)) (V c (Pipeline.arrRef spec4 1)) :=
  (dat4 V c).arrAt_eq_of_cover 2 _ (fun t _ => flushed4_eq V c t) (cover4)

end

end Cert.KernelIdeal.Regions

end
-- ==== Proof.RegionBias.lean ====
import proofs.«176352_j70050916598092_1_alg».proof.Proof.Gen.KernelIdeal.Frame
import proofs.«176352_j70050916598092_1_alg».proof.Proof.Spec
import Idealize.ShloMosaic.PureOps.Ideal.Laws
import Idealize.ShloMosaic.Lib.Pipeline.Value
import Idealize.ShloMosaic.Lib.ValueIdx
import Idealize.ShloMosaic.Lib.ValueLayout

/-!
Regions 2 and 5 of the kernel add the bias row to every row (region 2 then clamps at zero).  Each grid point
handles one block of 2000 rows and reads the whole bias row.  Read index by index, the body's result on a block
is the restriction of the whole-array function, and the blocks of the output tile its array, so after the
region the output array IS that function of the two arrays the region reads.
-/

noncomputable section

namespace Cert.KernelIdeal.Regions

open Idealize.ShloMosaic Idealize.ShloMosaic.ValueIdx Idealize.ShloMosaic.TcCoe Idealize.SL.Sem Cert.KernelIdeal Cert.KernelIdeal.Gen
open Idealize.ShloMosaic.Pipeline (Dat)

/-- The origin of a two-axis rectangle, as a constant function. -/
private theorem origin2_eq : (![0, 0] : Fin 2 → Nat) = fun _ => 0 := funext fun a => by fin_cases a <;> rfl

/-! ## Region 2: the bias row added to every row, then the clamp at zero, 64 columns -/

/-- The body at an index: the entry plus the bias row's entry of that column, clamped at zero. -/
theorem biasRelu64_payload_apply (x0 : Vec Ideal S2000x64 .f32) (x1 : Vec Ideal S1x64 .f32) (p : Fin 2000) (q : Fin 64) :
    k2_pay1 x0 x1 (ix2 p q) = max (x0 (ix2 p q) + x1 (ix2 (0 : Fin 1) q)) 0 := by
  unfold k2_pay1
  rw [maximumf_apply, addf_apply, shapeCast_self, shapeCast_self, broadcastTo_1b_ab_apply, broadcast_apply]
  show max _ (Ideal.ofBits .f32 0x00000000#32) = _
  rw [Ideal.ofBits_zero_f32]

/-- The body's result at `(p, q)` of a block is the whole-array function at the array index `i`, once the two
    blocks hold the arrays' entries that `i` names. -/
theorem biasRelu64_block (A0 : S100000x64.Idx → EReal) (A1 : S1x64.Idx → EReal)
    (x0 : Vec Ideal S2000x64 .f32) (x1 : Vec Ideal S1x64 .f32) (p : Fin 2000) (q : Fin 64) (i : S100000x64.Idx)
    (h0 : x0 (ix2 p q) = A0 i) (h1 : x1 (ix2 (0 : Fin 1) q) = A1 (ix2 (0 : Fin 1) (i 1 : Fin 64))) :
    k2_pay1 x0 x1 (ix2 p q) = Cert.Spec.biasRelu A0 A1 i := by
  rw [biasRelu64_payload_apply, h0, h1]; rfl

/-- The windows' block indices at grid point `t`: the two tiled windows at block row `t`, block column 0; the
    bias row's window at its one block. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What grid point `t` writes back is block `t` of the whole-array function of the arrays as the region finds them. -/
theorem flushed2_eq (c : Dev nD) (t : Fin cfg2.N) :
    (dat2 (F := Ideal) V c).flushed 2 t = ((cfg2.win 2).blk t).view.read (Elt Ideal)
      (Cert.Spec.biasRelu (V c (Pipeline.arrRef spec2 0)) (V c (Pipeline.arrRef spec2 1))) := by
  show (cfg2.win 2).cut (grid2.coords t) ((dat2 V c).after 2 t) = _
  rw [after2_2]
  unfold out2_2
  rw [View.canon_unit_zero origin2_eq]
  simp only [View.ld_unit_zero (S := S2000x64) origin2_eq, View.ld_unit_zero (S := S1x64) origin2_eq]
  obtain ⟨e0, e1, e2, e3, e4, e5⟩ := block_index2 t
  funext j
  obtain ⟨p, q, rfl⟩ : ∃ (p : Fin 2000) (q : Fin 64), j = ix2 p q := ⟨j 0, j 1, eq_ix2 j⟩
  refine biasRelu64_block (V c (Pipeline.arrRef spec2 0)) (V c (Pipeline.arrRef spec2 1)) (iblk2 V c 0 t) (iblk2 V c 1 t) p q
    (((cfg2.win 2).blk t).view.emb (ix2 p q)) ?_ ?_
  · show V c (Pipeline.arrRef spec2 0) (((cfg2.win 0).blk t).view.emb (ix2 p q)) = _
    refine congrArg _ (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * q.val = win2_2.index t (1 : Fin 2) * 64 + 1 * q.val; omega
  · show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v47).slice (win2_2.rect t)).set ↔ _
  rw [View.set_slice_whole, Rect.mem_set_unit]
  exact Iff.rfl

/-- Every index of the array is in some point's block: row `r` is in block `r / 2000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by omega⟩, rfl⟩
  obtain ⟨e0, e1, e2, e3, e4, e5⟩ := block_index2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after region 2: the bias row added to every row, then the clamp at zero, as one function of the two arrays the region reads. -/
theorem final2 (c : Dev nD) : (dat2 (F := Ideal) V c).arrAt 2 cfg2.N
    = Cert.Spec.biasRelu (V c (Pipeline.arrRef spec2 0)) (V c (Pipeline.arrRef spec2 1)) :=
  (dat2 V c).arrAt_eq_of_cover 2 _ (fun t _ => flushed2_eq V c t) (cover2)

end

/-! ## Region 5: the bias row added to every row, 40 columns -/

/-- The body at an index: the entry plus the bias row's entry of that column. -/
theorem bias40_payload_apply (x0 : Vec Ideal S2000x40 .f32) (x1 : Vec Ideal S1x40 .f32) (p : Fin 2000) (q : Fin 40) :
    k5_pay1 x0 x1 (ix2 p q) = x0 (ix2 p q) + x1 (ix2 (0 : Fin 1) q) := by
  unfold k5_pay1
  rw [addf_apply, shapeCast_self, shapeCast_self, broadcastTo_1b_ab_apply]

/-- The body's result at `(p, q)` of a block is the whole-array function at the array index `i`, once the two
    blocks hold the arrays' entries that `i` names. -/
theorem bias40_block (A0 : S100000x40.Idx → EReal) (A1 : S1x40.Idx → EReal)
    (x0 : Vec Ideal S2000x40 .f32) (x1 : Vec Ideal S1x40 .f32) (p : Fin 2000) (q : Fin 40) (i : S100000x40.Idx)
    (h0 : x0 (ix2 p q) = A0 i) (h1 : x1 (ix2 (0 : Fin 1) q) = A1 (ix2 (0 : Fin 1) (i 1 : Fin 40))) :
    k5_pay1 x0 x1 (ix2 p q) = Cert.Spec.bias A0 A1 i := by
  rw [bias40_payload_apply, h0, h1]; rfl

/-- The windows' block indices at grid point `t`: the two tiled windows at block row `t`, block column 0; the
    bias row's window at its one block. -/
theorem block_index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What grid point `t` writes back is block `t` of the whole-array function of the arrays as the region finds them. -/
theorem flushed5_eq (c : Dev nD) (t : Fin cfg5.N) :
    (dat5 (F := Ideal) V c).flushed 2 t = ((cfg5.win 2).blk t).view.read (Elt Ideal)
      (Cert.Spec.bias (V c (Pipeline.arrRef spec5 0)) (V c (Pipeline.arrRef spec5 1))) := by
  show (cfg5.win 2).cut (grid5.coords t) ((dat5 V c).after 2 t) = _
  rw [after5_2]
  unfold out5_2
  rw [View.canon_unit_zero origin2_eq]
  simp only [View.ld_unit_zero (S := S2000x40) origin2_eq, View.ld_unit_zero (S := S1x40) origin2_eq]
  obtain ⟨e0, e1, e2, e3, e4, e5⟩ := block_index5 t
  funext j
  obtain ⟨p, q, rfl⟩ : ∃ (p : Fin 2000) (q : Fin 40), j = ix2 p q := ⟨j 0, j 1, eq_ix2 j⟩
  refine bias40_block (V c (Pipeline.arrRef spec5 0)) (V c (Pipeline.arrRef spec5 1)) (iblk5 V c 0 t) (iblk5 V c 1 t) p q
    (((cfg5.win 2).blk t).view.emb (ix2 p q)) ?_ ?_
  · show V c (Pipeline.arrRef spec5 0) (((cfg5.win 0).blk t).view.emb (ix2 p q)) = _
    refine congrArg _ (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 40 + 1 * q.val = win5_2.index t (1 : Fin 2) * 40 + 1 * q.val; omega
  · show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 40 + 1 * q.val = win5_2.index t (1 : Fin 2) * 40 + 1 * q.val; omega

/-- An index of the array is in point `t`'s block iff each coordinate is in the block's range on its axis. -/
theorem mem_blk5 (t : Fin cfg5.N) (i : S100000x40.Idx) :
    i ∈ ((cfg5.win 2).blk t).view.set ↔ ∀ a : Fin 2, win5_2.index t a * S2000x40.size a ≤ (i a).val
      ∧ (i a).val < win5_2.index t a * S2000x40.size a + S2000x40.size a := by
  show i ∈ ((View.whole main_v61).slice (win5_2.rect t)).set ↔ _
  rw [View.set_slice_whole, Rect.mem_set_unit]
  exact Iff.rfl

/-- Every index of the array is in some point's block: row `r` is in block `r / 2000`. -/
theorem cover5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 50 := N_5
  obtain ⟨t, ht⟩ : ∃ t : Fin cfg5.N, t.val = (i 0).val / 2000 := ⟨⟨(i 0).val / 2000, by omega⟩, rfl⟩
  obtain ⟨e0, e1, e2, e3, e4, e5⟩ := block_index5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 40 ≤ (i 1).val ∧ (i 1).val < win5_2.index t (1 : Fin 2) * 40 + 40; omega

/-- The output array after region 5: the bias row added to every row, as one function of the two arrays the region reads. -/
theorem final5 (c : Dev nD) : (dat5 (F := Ideal) V c).arrAt 2 cfg5.N
    = Cert.Spec.bias (V c (Pipeline.arrRef spec5 0)) (V c (Pipeline.arrRef spec5 1)) :=
  (dat5 V c).arrAt_eq_of_cover 2 _ (fun t _ => flushed5_eq V c t) (cover5)

end

end Cert.KernelIdeal.Regions

end
-- ==== Proof.lean ====
import proofs.«176352_j70050916598092_1_alg».proof.Defs
import proofs.«176352_j70050916598092_1_alg».proof.Proof.Gen.Kernel
import proofs.«176352_j70050916598092_1_alg».proof.Proof.Gen.Kernel.Skeleton
import proofs.«176352_j70050916598092_1_alg».proof.Proof.Gen.Kernel.Launch
import proofs.«176352_j70050916598092_1_alg».proof.Proof.Gen.Kernel.Points
import proofs.«176352_j70050916598092_1_alg».proof.Proof.Gen.Kernel.Frame
import proofs.«176352_j70050916598092_1_alg».proof.Proof.Gen.KernelIdeal
import proofs.«176352_j70050916598092_1_alg».proof.Proof.Gen.KernelIdeal.Skeleton
import proofs.«176352_j70050916598092_1_alg».proof.Proof.Gen.KernelIdeal.Launch
import proofs.«176352_j70050916598092_1_alg».proof.Proof.Gen.KernelIdeal.Points
import proofs.«176352_j70050916598092_1_alg».proof.Proof.Gen.KernelIdeal.Frame
import proofs.«176352_j70050916598092_1_alg».proof.Proof.Gen.ReferenceIdeal
import proofs.«176352_j70050916598092_1_alg».proof.Proof.Gen.Pre_finite_inputs
import proofs.«176352_j70050916598092_1_alg».proof.Proof.KernelRun
import proofs.«176352_j70050916598092_1_alg».proof.Proof.KernelChain
import proofs.«176352_j70050916598092_1_alg».proof.Proof.RefRead
import proofs.«176352_j70050916598092_1_alg».proof.Proof.Bridge
import proofs.«176352_j70050916598092_1_alg».proof.Proof.RegionMM
import proofs.«176352_j70050916598092_1_alg».proof.Proof.RegionScale
import proofs.«176352_j70050916598092_1_alg».proof.Proof.RegionBias
import Idealize.ShloMosaic.Adequacy
import Idealize.ShloMosaic.Init

/-!
A two-layer graph convolution, as a tiled kernel program and as its array-level reference, agree on the extended reals.

Both programs take node features x [100000,128], an edge list [2,1600000], weights w1 [128,64], w2 [64,40] and bias
rows b1 [64], b2 [40].  The edge list is extended by one self loop per node; the degree of a node counts the edges that
point at it; an edge's weight is the product of the inverse square roots of its end points' degrees (zero where a degree
is not positive).  A layer is: the dense product with the layer's weights, the gather of the source rows, the scaling of
each gathered row by its edge's weight, the scatter-sum onto the target rows, and the bias row added along the rows;
the first layer ends with the clamp at zero.

The kernel program computes the three dense, regular stages of each layer tile by tile (50 row blocks of 2000 rows for
the products and the biases, 416 blocks of 4096 edges for the scaling, over an edge list padded with 3936 edges of
weight zero) and leaves the gather and the scatter-sum to the host.  Each tiled region leaves in its output array the
whole-array function its tiles restrict, so the program's result buffer is one function, `Val.out`, of the six argument
arrays.  The reference computes the same stages on whole arrays over the unpadded edge list; the padding edges carry
weight zero and add zero to node 0, so the two scatter-sums agree, and stage by stage the reference's result is the
same function of the same arguments.  Hence from memories that agree on the arguments both programs end with equal
results, and neither changes its arguments.
-/

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- The kernel program read on the extended reals runs and keeps its arguments. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The kernel program's result buffer at its last segment boundary is `Val.out` of the launch contents of its
    six arguments: the walk over the boundaries, with each region's output array the whole-array function its
    tiles restrict. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W19 (F := Ideal) m ρ c (Proc.devRef .tc Cert.KernelIdeal.main_v61)
      = Cert.KernelIdeal.Val.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) :=
  Cert.KernelIdeal.Chain.value m ρ
    (fun V c => Cert.KernelIdeal.Regions.final0 V c) (fun V c => Cert.KernelIdeal.Regions.final1 V c)
    (fun V c => Cert.KernelIdeal.Regions.final2 V c) (fun V c => Cert.KernelIdeal.Regions.final3 V c)
    (fun V c => Cert.KernelIdeal.Regions.final4 V c) (fun V c => Cert.KernelIdeal.Regions.final5 V c) c

/-- On the extended reals the kernel program's result buffer ends at `Val.out` of its six argument arrays, the
    reference's at its last stage of its own; the arguments agree and the two are one function. -/
theorem algebraic :
    Cert.algebraic_KernelIdeal_ReferenceIdeal := by
  intro m ρ m' ρ' _ hagree
  refine ⟨fun c => Cert.KernelIdeal.Val.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v87_eq, (hagree c).1, (hagree c).2.1, (hagree c).2.2.1, (hagree c).2.2.2.1,
      (hagree c).2.2.2.2.1, (hagree c).2.2.2.2.2]
    exact (Cert.Bridge.out_eq _ _ _ _ _ _).symm

/-- The five claims together, under the programs' own stated facts. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
